-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x3072 : Shape := ⟨2, ![1024, 3072]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S1024x3072 .f32) (main_arg2 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x2048x1024 : Shape := ⟨3, ![2, 2048, 1024]⟩
abbrev S1024x3072 : Shape := ⟨2, ![1024, 3072]⟩
abbrev S1024x1024 : Shape := ⟨2, ![1024, 1024]⟩
abbrev S4096x1024 : Shape := ⟨2, ![4096, 1024]⟩
abbrev S4096x3072 : Shape := ⟨2, ![4096, 3072]⟩
abbrev S512x1024 : Shape := ⟨2, ![512, 1024]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S64x2048 : Shape := ⟨2, ![64, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 27
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S1024x1024, .f32⟩
  | .hbm, ⟨3, _⟩ => ⟨S2x2048x1024, .bf16⟩
  | .hbm, ⟨4, _⟩ => ⟨S1024x3072, .bf16⟩
  | .hbm, ⟨5, _⟩ => ⟨S1024x1024, .bf16⟩
  | .hbm, ⟨6, _⟩ => ⟨S4096x1024, .bf16⟩
  | .hbm, ⟨7, _⟩ => ⟨S4096x3072, .bf16⟩
  | .hbm, ⟨8, _⟩ => ⟨S2x2048x3072, .bf16⟩
  | .hbm, ⟨9, _⟩ => ⟨S2x2048x1024, .bf16⟩
  | .hbm, ⟨10, _⟩ => ⟨S2x2048x1024, .bf16⟩
  | .hbm, ⟨11, _⟩ => ⟨S2x2048x1024, .bf16⟩
  | .hbm, ⟨12, _⟩ => ⟨S2x2048x16x64, .bf16⟩
  | .hbm, ⟨13, _⟩ => ⟨S2x16x2048x64, .bf16⟩
  | .hbm, ⟨14, _⟩ => ⟨S32x2048x64, .bf16⟩
  | .hbm, ⟨15, _⟩ => ⟨S2x2048x16x64, .bf16⟩
  | .hbm, ⟨16, _⟩ => ⟨S2x16x2048x64, .bf16⟩
  | .hbm, ⟨17, _⟩ => ⟨S32x2048x64, .bf16⟩
  | .hbm, ⟨18, _⟩ => ⟨S2x2048x16x64, .bf16⟩
  | .hbm, ⟨19, _⟩ => ⟨S2x16x2048x64, .bf16⟩
  | .hbm, ⟨20, _⟩ => ⟨S32x2048x64, .bf16⟩
  | .hbm, ⟨21, _⟩ => ⟨S32x2048x64, .bf16⟩
  | .hbm, ⟨22, _⟩ => ⟨S2x16x2048x64, .bf16⟩
  | .hbm, ⟨23, _⟩ => ⟨S2x2048x16x64, .bf16⟩
  | .hbm, ⟨24, _⟩ => ⟨S4096x1024, .bf16⟩
  | .hbm, ⟨25, _⟩ => ⟨S4096x1024, .f32⟩
  | .hbm, ⟨26, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x1024x64, .bf16⟩
  | .local _ .vmem, ⟨13, _⟩ => ⟨S1x1024x64, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![32, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![1, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bitsLt_bf16_f32 : FTy.bits .bf16 < FTy.bits .f32
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S4096x3072_S2x2048x3072 : S4096x3072.ShapeCasts S2x2048x3072
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x3072.size a
  hwx0_2 : ∀ i : grid0.Coords, EltTy.bits .bf16 = 32 ∨ (Rect.block (s := S4096x3072) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S32x2048x64.size a
  hwx1_0 : ∀ i : grid1.Coords, EltTy.bits .bf16 = 32 ∨ (Rect.block (s := S32x2048x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S32x2048x64.size a
  hwx1_3 : ∀ i : grid1.Coords, EltTy.bits .bf16 = 32 ∨ (Rect.block (s := S32x2048x64) S1x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x1024.size a
  hwx2_2 : ∀ i : grid2.Coords, EltTy.bits .f32 = 32 ∨ (Rect.block (s := S4096x1024) S512x1024.size (cc2_transform_2 i) (hinb2_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v3) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v21) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x3072 : Shape := ⟨2, ![1024, 3072]⟩
abbrev S1024x1024 : Shape := ⟨2, ![1024, 1024]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S1024x1024, .f32⟩
  | .hbm, ⟨3, _⟩ => ⟨S2x2048x3072, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x16x64, .f32⟩
  | .hbm, ⟨8, _⟩ => ⟨S2x16x2048x64, .f32⟩
  | .hbm, ⟨9, _⟩ => ⟨S2x2048x16x64, .f32⟩
  | .hbm, ⟨10, _⟩ => ⟨S2x16x2048x64, .f32⟩
  | .hbm, ⟨11, _⟩ => ⟨S2x2048x16x64, .f32⟩
  | .hbm, ⟨12, _⟩ => ⟨S2x16x2048x64, .f32⟩
  | .hbm, ⟨13, _⟩ => ⟨S2x16x2048x2048, .f32⟩
  | .hbm, ⟨14, _⟩ => ⟨S_, .f32⟩
  | .hbm, ⟨15, _⟩ => ⟨S_, .f32⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2x16x2048, .f32⟩
  | .hbm, ⟨20, _⟩ => ⟨S_, .f32⟩
  | .hbm, ⟨21, _⟩ => ⟨S2x16x2048, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048, .f32⟩
  | .hbm, ⟨29, _⟩ => ⟨S2x16x2048x1, .f32⟩
  | .hbm, ⟨30, _⟩ => ⟨S2x16x2048x2048, .f32⟩
  | .hbm, ⟨31, _⟩ => ⟨S2x16x2048x2048, .f32⟩
  | .hbm, ⟨32, _⟩ => ⟨S2x16x2048x64, .f32⟩
  | .hbm, ⟨33, _⟩ => ⟨S2x2048x16x64, .f32⟩
  | .hbm, ⟨34, _⟩ => ⟨S2x2048x1024, .f32⟩
  | .hbm, ⟨35, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]

class Facts₀ : Prop where
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x3072_S2x2048x3072_2_0_01_1_n_n_wf : DotDims.WF S2x2048x1024 S1024x3072 S2x2048x3072 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_0_01_1_n_n_wf : DotDims.WF S2x2048x1024 S1024x1024 S2x2048x1024 [2] [0] [0, 1] [1] [] []

variable [Facts₀]

def dot_S2x2048x1024_S1024x3072_S2x2048x3072_2_0_01_1_n_n : DotDims S2x2048x1024 S1024x3072 S2x2048x3072 where
  lhsContracting := [2]
  rhsContracting := [0]
  lhsNonContracting := [0, 1]
  rhsNonContracting := [1]
  lhsBatch := []
  rhsBatch := []
  wf := dot_S2x2048x1024_S1024x3072_S2x2048x3072_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf

class Facts : Prop extends Facts₀ where

variable [Facts]
-- ==== Proof.KernelRun.lean ====
/-
  The idealized kernel program's run with its RESULT named.

  The program's @main is seven segments: four stretches of host operations around three kernel regions. The
  launch theorem for such a chain ends with every buffer that outlives the regions holding the last boundary's
  contents — the fold of the host stretches and of each region's write-backs over the launch memory. Read at the
  result buffer this gives the result's value; read at an argument it gives the argument back.
-/
import proofs.«135831_j22239340659491_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents, and the three arguments as launched. -/
theorem run : θ_run defs (onTc (τ := τ) (main (F := F))) ⟨m, fun _ => 0, ρ⟩ (fun r => ∀ c : Dev nD,
      r.2.mem ((c.tc : Thread nD τ).loc main_v23) = W7 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v23 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.KernelIdeal.RunValue

end
-- ==== Proof.HostGlue.lean ====
/-
  The host operations around the three kernel regions of the idealized kernel program, read back.

  Before the first region the three arguments are narrowed (a change of format: the identity on the extended reals) and
  the activations' two leading axes merged. Between the first and the second region the projection's rows are split
  again into (batch, position), cut into three column bands, each band split into heads, the head axis moved before
  the position axis, and batch and head merged. Between the second and the third region those steps are undone for
  the attention's result. After the third region the rows are split into (batch, position) once more.

  Each buffer a region reads, and the result buffer, is stated here as the term of those operations over what the
  previous region left in its output array (or over the launch memory).
-/
import proofs.«135831_j22239340659491_2_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.HostGlue

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- What the first region leaves in its output array: the projection's rows, [4096, 3072]. -/
abbrev arrQkv (c : Dev nD) : (⟨S4096x3072, .bf16⟩ : BufTy).Contents (Elt Ideal) := (dat0 (V1 m ρ) c).arrAt 2 cfg0.N
/-- What the second region leaves in its output array: the attention's result per merged head, [32, 2048, 64]. -/
abbrev arrAttn (c : Dev nD) : (⟨S32x2048x64, .bf16⟩ : BufTy).Contents (Elt Ideal) := (dat1 (V3 m ρ) c).arrAt 3 cfg1.N
/-- What the third region leaves in its output array: the output projection's rows, [4096, 1024]. -/
abbrev arrOut (c : Dev nD) : (⟨S4096x1024, .f32⟩ : BufTy).Contents (Elt Ideal) := (dat2 (V5 m ρ) c).arrAt 2 cfg2.N

/-- One band of the projection as per-head rows: the band at column offset `off` of the [2, 2048, 3072] array, its
    1024 columns split into 16 heads of 64, the head axis moved before the position axis. -/
def headsOf (off : Fin 3 → ℕ) (hs : S2x2048x3072.Slices off S2x2048x1024)
    (y : (⟨S2x2048x3072, .bf16⟩ : BufTy).Contents (Elt Ideal)) : (⟨S2x16x2048x64, .bf16⟩ : BufTy).Contents (Elt Ideal) :=
  transpose S2x16x2048x64 [0, 2, 1, 3]
    (shapeCast S2x2048x16x64 (extractStridedSlice S2x2048x1024 off y hs) shapeCasts_S2x2048x1024_S2x2048x16x64)
    transposes_S2x2048x16x64_S2x16x2048x64_0_2_1_3

/-- The projection with its rows split into (batch, position). -/
def qkv3 (c : Dev nD) : (⟨S2x2048x3072, .bf16⟩ : BufTy).Contents (Elt Ideal) :=
  shapeCast S2x2048x3072 (arrQkv m ρ c) shapeCasts_S4096x3072_S2x2048x3072

/-! ## Before the first region -/

theorem entry0_activations (c : Dev nD) :
    (V1 m ρ c main_v3 : (⟨S4096x1024, .bf16⟩ : BufTy).Contents (Elt Ideal))
      = shapeCast S4096x1024 (truncf (F := Ideal) .bf16 (m ((c : Thread nD τ).loc main_arg0) : FVec Ideal S2x2048x1024 .f32) bitsLt_bf16_f32) shapeCasts_S2x2048x1024_S4096x1024 := by
  show StableHlo.after hostOps0 (W0 m ρ c) (Proc.devRef .tc main_v3) = _
  after_results
  rfl

theorem entry0_weights (c : Dev nD) :
    (V1 m ρ c main_v1 : (⟨S1024x3072, .bf16⟩ : BufTy).Contents (Elt Ideal))
      = truncf (F := Ideal) .bf16 (m ((c : Thread nD τ).loc main_arg1) : FVec Ideal S1024x3072 .f32) bitsLt_bf16_f32 := by
  show StableHlo.after hostOps0 (W0 m ρ c) (Proc.devRef .tc main_v1) = _
  after_results

/-! ## Between the first and the second region -/

theorem W2_qkv (c : Dev nD) : W2 m ρ c (Proc.devRef .tc main_v4) = arrQkv m ρ c := W2_arr m ρ c 2

theorem entry1_queries (c : Dev nD) :
    V3 m ρ c main_v11 = shapeCast S32x2048x64 (headsOf ![0, 0, 0] slices_S2x2048x3072_S2x2048x1024_0_0_0 (qkv3 m ρ c)) shapeCasts_S2x16x2048x64_S32x2048x64 := by
  show StableHlo.after hostOps1 (W2 m ρ c) (Proc.devRef .tc main_v11) = _
  after_results
  rw [W2_qkv]
  rfl

theorem entry1_keys (c : Dev nD) :
    V3 m ρ c main_v14 = shapeCast S32x2048x64 (headsOf ![0, 0, 1024] slices_S2x2048x3072_S2x2048x1024_0_0_1024 (qkv3 m ρ c)) shapeCasts_S2x16x2048x64_S32x2048x64 := by
  show StableHlo.after hostOps1 (W2 m ρ c) (Proc.devRef .tc main_v14) = _
  after_results
  rw [W2_qkv]
  rfl

theorem entry1_values (c : Dev nD) :
    V3 m ρ c main_v17 = shapeCast S32x2048x64 (headsOf ![0, 0, 2048] slices_S2x2048x3072_S2x2048x1024_0_0_2048 (qkv3 m ρ c)) shapeCasts_S2x16x2048x64_S32x2048x64 := by
  show StableHlo.after hostOps1 (W2 m ρ c) (Proc.devRef .tc main_v17) = _
  after_results
  rw [W2_qkv]
  rfl

/-! ## Between the second and the third region -/

theorem W4_attn (c : Dev nD) : W4 m ρ c (Proc.devRef .tc main_v18) = arrAttn m ρ c := W4_arr m ρ c 3

/-- The attention's result with the heads merged back into 1024 columns and (batch, position) merged into rows. -/
def mergedAttn (c : Dev nD) : (⟨S4096x1024, .bf16⟩ : BufTy).Contents (Elt Ideal) :=
  shapeCast S4096x1024
    (transpose S2x2048x16x64 [0, 2, 1, 3] (shapeCast S2x16x2048x64 (arrAttn m ρ c) shapeCasts_S32x2048x64_S2x16x2048x64)
      transposes_S2x16x2048x64_S2x2048x16x64_0_2_1_3)
    shapeCasts_S2x2048x16x64_S4096x1024

theorem entry2_activations (c : Dev nD) : V5 m ρ c main_v21 = mergedAttn m ρ c := by
  show StableHlo.after hostOps2 (W4 m ρ c) (Proc.devRef .tc main_v21) = _
  after_results
  rw [W4_attn]
  rfl

/-- The output projection's weights reach the third region as narrowed before the first: no region and no later host
    operation writes them. -/
theorem entry2_weights (c : Dev nD) :
    (V5 m ρ c main_v2 : (⟨S1024x1024, .bf16⟩ : BufTy).Contents (Elt Ideal))
      = truncf (F := Ideal) .bf16 (m ((c : Thread nD τ).loc main_arg2) : FVec Ideal S1024x1024 .f32) bitsLt_bf16_f32 :=
  calc (V5 m ρ c main_v2 : (⟨S1024x1024, .bf16⟩ : BufTy).Contents (Elt Ideal))
    _ = W4 m ρ c (Proc.devRef .tc main_v2) := StableHlo.after_of_forall_not_mem (b := Proc.devRef .tc main_v2) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m ρ c (Proc.devRef .tc main_v2) := W4_of_ne m ρ c main_v2 (by decide)
    _ = W2 m ρ c (Proc.devRef .tc main_v2) := StableHlo.after_of_forall_not_mem (b := Proc.devRef .tc main_v2) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_v2) := W2_of_ne m ρ c main_v2 (by decide)
    _ = truncf (F := Ideal) .bf16 (m ((c : Thread nD τ).loc main_arg2) : FVec Ideal S1024x1024 .f32) bitsLt_bf16_f32 := by
          show StableHlo.after hostOps0 (W0 m ρ c) (Proc.devRef .tc main_v2) = _
          after_results

/-! ## After the third region -/

theorem W6_out (c : Dev nD) : W6 m ρ c (Proc.devRef .tc main_v22) = arrOut m ρ c := W6_arr m ρ c 2

theorem result (c : Dev nD) :
    W7 m ρ c (Proc.devRef .tc main_v23) = shapeCast S2x2048x1024 (arrOut m ρ c) shapeCasts_S4096x1024_S2x2048x1024 := by
  show StableHlo.after hostOps3 (W6 m ρ c) (Proc.devRef .tc main_v23) = _
  after_results
  rw [W6_out]
  rfl

end Cert.KernelIdeal.HostGlue

end
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.MatmulRegions.lean ====
/-
  What the first and the third kernel region of the idealized kernel program leave in their output arrays.

  Both regions run the same body over a grid of blocks: a block of 512 rows of the left array (all 1024 columns)
  times a block of 1024 columns of the right array (all 1024 rows), accumulated into zero. Over the extended reals
  the narrowing conversion the first region ends with is the identity, so block `(i, j)` of either output is block
  `(i, j)` of ONE whole-array function of the two arrays the region finds: entry `(r, e)` is `∑_d X (r, d) · W (d, e)`.
  The output's blocks tile its array, so after the last grid point the array is that function.
-/
import proofs.«135831_j22239340659491_2_alg».proof.Proof.Gen.KernelIdeal.Frame
import proofs.«135831_j22239340659491_2_alg».proof.Proof.LibPlainMatmul
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MatmulRegions

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The whole-array function -/

/-- rows times a matrix: entry (r, e) is ∑_d X (r, d) · W (d, e) -/
def rowsTimes {R K N : ℕ} (X : (⟨2, ![R, K]⟩ : Shape).Idx → EReal) (W : (⟨2, ![K, N]⟩ : Shape).Idx → EReal) :
    (⟨2, ![R, N]⟩ : Shape).Idx → EReal :=
  fun i => ∑ d : Fin K, X (ix2 (i 0) d) * W (ix2 d (i 1))

theorem rowsTimes_apply {R K N : ℕ} (X : (⟨2, ![R, K]⟩ : Shape).Idx → EReal) (W : (⟨2, ![K, N]⟩ : Shape).Idx → EReal)
    (r : Fin R) (e : Fin N) : rowsTimes X W (ix2 r e) = ∑ d : Fin K, X (ix2 r d) * W (ix2 d e) := rfl

/-- The same at any index of the result, its coordinates read off. -/
theorem rowsTimes_at {R K N : ℕ} (X : (⟨2, ![R, K]⟩ : Shape).Idx → EReal) (W : (⟨2, ![K, N]⟩ : Shape).Idx → EReal)
    (i : (⟨2, ![R, N]⟩ : Shape).Idx) : rowsTimes X W i = ∑ d : Fin K, X (ix2 (i 0) d) * W (ix2 d (i 1)) := rfl

/-! ## The body's payload at an index -/

/-- The first region's payload: the product of the two loaded blocks into zero, then a narrowing that is the
    identity on extended reals. -/
theorem pay0_apply (x0 : Vec Ideal S512x1024 .bf16) (x1 : Vec Ideal S1024x1024 .bf16) (p : Fin 512) (q : Fin 1024) :
    k0_pay1 (F := Ideal) x0 x1 (ix2 p q) = ∑ d : Fin 1024, x0 (ix2 p d) * x1 (ix2 d q) := by
  unfold k0_pay1
  rw [shapeCast_self, shapeCast_self]
  exact PlainMatmul.matmul_zero_apply (φ₁ := .bf16) (φ₂ := .bf16) dot_S512x1024_S1024x1024_S512x1024_1_0_0_1_n_n rfl rfl rfl rfl rfl rfl none x0 x1 p q

/-- The third region's payload: the same product, kept at the wide format. -/
theorem pay2_apply (x0 : Vec Ideal S512x1024 .bf16) (x1 : Vec Ideal S1024x1024 .bf16) (p : Fin 512) (q : Fin 1024) :
    k2_pay1 (F := Ideal) x0 x1 (ix2 p q) = ∑ d : Fin 1024, x0 (ix2 p d) * x1 (ix2 d q) := by
  unfold k2_pay1
  rw [shapeCast_self, shapeCast_self]
  exact PlainMatmul.matmul_zero_apply (φ₁ := .bf16) (φ₂ := .bf16) dot_S512x1024_S1024x1024_S512x1024_1_0_0_1_n_n rfl rfl rfl rfl rfl rfl none x0 x1 p q

/-! ## Zero offsets -/

/-- The offsets of a whole-block access, however the zeros are spelt. -/
theorem zero_offsets : (![0, 0] : Fin 2 → Nat) = fun _ => 0 := funext fun a => by fin_cases a <;> rfl

section Regions

variable (V : (c : Dev nD) → (b : Ref sig .tc) → Buf (Elt Ideal) ((c : Thread nD τ).loc b))

/-! ## The first region: blocks of 512 rows by 1024 columns over a grid of 3 column blocks by 8 row blocks -/

/-- The index maps over the grid: the left array's block is the output's row block, all columns; the right array's
    block is the output's column block, all rows; the output's block indices stay in their ranges. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7 ∧ win0_2.index t (1 : Fin 2) ≤ 2 :=
  (by decide +kernel : ∀ t : Fin grid0.N, _)

/-- Every block of the output is some grid point's. -/
theorem idx_onto0 : ∀ (q0 : Fin 8) (q1 : Fin 3), ∃ t : Fin cfg0.N, win0_2.index t = ![q0.val, q1.val] :=
  (by decide +kernel : ∀ (q0 : Fin 8) (q1 : Fin 3), ∃ t : Fin grid0.N, win0_2.index t = ![q0.val, q1.val])

/-- An element of the left array's block at a point: the array's element on the output block's rows. -/
theorem lhs_blk0 (c : Dev nD) (t : Fin cfg0.N) (x : S512x1024.Idx) (k : S4096x1024.Idx)
    (h0 : (k 0).val = win0_2.index t (0 : Fin 2) * 512 + (x 0).val) (h1 : (k 1).val = (x 1).val) :
    (iblk0 (F := Ideal) V c 0 t : Vec Ideal S512x1024 .bf16) x = (V c main_v3 : S4096x1024.Idx → EReal) k := by
  obtain ⟨e0, e1, -, -, -, -⟩ := idx_facts0 t
  unfold iblk0
  rw [View.read_apply]
  show (V c main_v3 : S4096x1024.Idx → EReal) (((cfg0.win 0).blk t).view.emb x) = _
  congr 1
  funext a
  apply Fin.ext
  match a with
  | ⟨0, _⟩ => show win0_0.index t (0 : Fin 2) * 512 + 1 * (x 0).val = (k 0).val; omega
  | ⟨1, _⟩ => show win0_0.index t (1 : Fin 2) * 1024 + 1 * (x 1).val = (k 1).val; omega

/-- An element of the right array's block at a point: the array's element on the output block's columns. -/
theorem rhs_blk0 (c : Dev nD) (t : Fin cfg0.N) (x : S1024x1024.Idx) (k : S1024x3072.Idx)
    (h0 : (k 0).val = (x 0).val) (h1 : (k 1).val = win0_2.index t (1 : Fin 2) * 1024 + (x 1).val) :
    (iblk0 (F := Ideal) V c 1 t : Vec Ideal S1024x1024 .bf16) x = (V c main_v1 : S1024x3072.Idx → EReal) k := by
  obtain ⟨-, -, e2, e3, -, -⟩ := idx_facts0 t
  unfold iblk0
  rw [View.read_apply]
  show (V c main_v1 : S1024x3072.Idx → EReal) (((cfg0.win 1).blk t).view.emb x) = _
  congr 1
  funext a
  apply Fin.ext
  match a with
  | ⟨0, _⟩ => show win0_1.index t (0 : Fin 2) * 1024 + 1 * (x 0).val = (k 0).val; omega
  | ⟨1, _⟩ => show win0_1.index t (1 : Fin 2) * 1024 + 1 * (x 1).val = (k 1).val; omega

/-- What a grid point writes back is its block of the rows-times-matrix function of the two arrays the region finds. -/
theorem flushed0_eq (c : Dev nD) (t : Fin cfg0.N) :
    (dat0 (F := Ideal) V c).flushed 2 t
      = ((cfg0.win 2).blk t).view.read (Elt Ideal) (rowsTimes (R := 4096) (K := 1024) (N := 3072) (V c main_v3) (V c main_v1)) := by
  show (cfg0.win 2).cut (grid0.coords t) ((dat0 (F := Ideal) V c).after 2 t) = _
  rw [after0_2]
  unfold out0_2
  rw [View.canon_unit_zero zero_offsets]
  simp only [View.ld_unit_zero (S := S512x1024) zero_offsets, View.ld_unit_zero (S := S1024x1024) zero_offsets]
  refine funext fun (j : S512x1024.Idx) => ?_
  show k0_pay1 (F := Ideal) (iblk0 V c 0 t) (iblk0 V c 1 t) j
    = rowsTimes (R := 4096) (K := 1024) (N := 3072) (V c main_v3) (V c main_v1) (((cfg0.win 2).blk t).view.emb j)
  obtain ⟨p, q, rfl⟩ : ∃ (p : Fin 512) (q : Fin 1024), j = ix2 p q := ⟨j 0, j 1, eq_ix2 j⟩
  refine (pay0_apply _ _ p q).trans ?_
  refine Eq.trans ?_ (rowsTimes_at _ _ _).symm
  refine Finset.sum_congr rfl fun d _ => ?_
  refine congrArg₂ (· * ·) ?_ ?_
  · refine lhs_blk0 V c t (ix2 p d) _ ?_ rfl
    show win0_2.index t (0 : Fin 2) * 512 + 1 * p.val = win0_2.index t (0 : Fin 2) * 512 + p.val
    omega
  · refine rhs_blk0 V c t (ix2 d q) _ rfl ?_
    show win0_2.index t (1 : Fin 2) * 1024 + 1 * q.val = win0_2.index t (1 : Fin 2) * 1024 + q.val
    omega

/-- An index of the output array is in a point's block iff each coordinate is in the block's range on its axis. -/
theorem mem_blk0 (t : Fin cfg0.N) (i : S4096x3072.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v4).slice (win0_2.rect t)).set ↔ _
  rw [View.set_slice_whole, Rect.mem_set_unit]
  exact Iff.rfl

/-- The output's blocks cover its array: row `r` lies in row block `r / 512`, column `e` in column block `e / 1024`. -/
theorem cover0 (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ := idx_onto0 ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The first region's output array after the region: rows of the left array times the right array. -/
theorem final0 (c : Dev nD) :
    (dat0 (F := Ideal) V c).arrAt 2 cfg0.N = rowsTimes (R := 4096) (K := 1024) (N := 3072) (V c main_v3) (V c main_v1) :=
  (dat0 (F := Ideal) V c).arrAt_eq_of_cover 2 _ (fun t _ => flushed0_eq V c t) cover0

/-! ## The third region: the same blocks over a grid of 1 column block by 8 row blocks -/

/-- The index maps over the grid: the left array's block is the output's row block, all columns; the right array is
    one block, the output's one column block; the output's block indices stay in their ranges. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = win2_2.index t (1 : Fin 2)
    ∧ win2_2.index t (0 : Fin 2) ≤ 7 ∧ win2_2.index t (1 : Fin 2) ≤ 0 :=
  (by decide +kernel : ∀ t : Fin grid2.N, _)

/-- Every block of the output is some grid point's. -/
theorem idx_onto2 : ∀ (q0 : Fin 8) (q1 : Fin 1), ∃ t : Fin cfg2.N, win2_2.index t = ![q0.val, q1.val] :=
  (by decide +kernel : ∀ (q0 : Fin 8) (q1 : Fin 1), ∃ t : Fin grid2.N, win2_2.index t = ![q0.val, q1.val])

/-- An element of the left array's block at a point: the array's element on the output block's rows. -/
theorem lhs_blk2 (c : Dev nD) (t : Fin cfg2.N) (x : S512x1024.Idx) (k : S4096x1024.Idx)
    (h0 : (k 0).val = win2_2.index t (0 : Fin 2) * 512 + (x 0).val) (h1 : (k 1).val = (x 1).val) :
    (iblk2 (F := Ideal) V c 0 t : Vec Ideal S512x1024 .bf16) x = (V c main_v21 : S4096x1024.Idx → EReal) k := by
  obtain ⟨e0, e1, -, -, -, -⟩ := idx_facts2 t
  unfold iblk2
  rw [View.read_apply]
  show (V c main_v21 : S4096x1024.Idx → EReal) (((cfg2.win 0).blk t).view.emb x) = _
  congr 1
  funext a
  apply Fin.ext
  match a with
  | ⟨0, _⟩ => show win2_0.index t (0 : Fin 2) * 512 + 1 * (x 0).val = (k 0).val; omega
  | ⟨1, _⟩ => show win2_0.index t (1 : Fin 2) * 1024 + 1 * (x 1).val = (k 1).val; omega

/-- An element of the right array's block at a point: the array's element on the output block's columns. -/
theorem rhs_blk2 (c : Dev nD) (t : Fin cfg2.N) (x : S1024x1024.Idx) (k : S1024x1024.Idx)
    (h0 : (k 0).val = (x 0).val) (h1 : (k 1).val = win2_2.index t (1 : Fin 2) * 1024 + (x 1).val) :
    (iblk2 (F := Ideal) V c 1 t : Vec Ideal S1024x1024 .bf16) x = (V c main_v2 : S1024x1024.Idx → EReal) k := by
  obtain ⟨-, -, e2, e3, -, -⟩ := idx_facts2 t
  unfold iblk2
  rw [View.read_apply]
  show (V c main_v2 : S1024x1024.Idx → EReal) (((cfg2.win 1).blk t).view.emb x) = _
  congr 1
  funext a
  apply Fin.ext
  match a with
  | ⟨0, _⟩ => show win2_1.index t (0 : Fin 2) * 1024 + 1 * (x 0).val = (k 0).val; omega
  | ⟨1, _⟩ => show win2_1.index t (1 : Fin 2) * 1024 + 1 * (x 1).val = (k 1).val; omega

/-- What a grid point writes back is its block of the rows-times-matrix function of the two arrays the region finds. -/
theorem flushed2_eq (c : Dev nD) (t : Fin cfg2.N) :
    (dat2 (F := Ideal) V c).flushed 2 t
      = ((cfg2.win 2).blk t).view.read (Elt Ideal) (rowsTimes (R := 4096) (K := 1024) (N := 1024) (V c main_v21) (V c main_v2)) := by
  show (cfg2.win 2).cut (grid2.coords t) ((dat2 (F := Ideal) V c).after 2 t) = _
  rw [after2_2]
  unfold out2_2
  rw [View.canon_unit_zero zero_offsets]
  simp only [View.ld_unit_zero (S := S512x1024) zero_offsets, View.ld_unit_zero (S := S1024x1024) zero_offsets]
  refine funext fun (j : S512x1024.Idx) => ?_
  show k2_pay1 (F := Ideal) (iblk2 V c 0 t) (iblk2 V c 1 t) j
    = rowsTimes (R := 4096) (K := 1024) (N := 1024) (V c main_v21) (V c main_v2) (((cfg2.win 2).blk t).view.emb j)
  obtain ⟨p, q, rfl⟩ : ∃ (p : Fin 512) (q : Fin 1024), j = ix2 p q := ⟨j 0, j 1, eq_ix2 j⟩
  refine (pay2_apply _ _ p q).trans ?_
  refine Eq.trans ?_ (rowsTimes_at _ _ _).symm
  refine Finset.sum_congr rfl fun d _ => ?_
  refine congrArg₂ (· * ·) ?_ ?_
  · refine lhs_blk2 V c t (ix2 p d) _ ?_ rfl
    show win2_2.index t (0 : Fin 2) * 512 + 1 * p.val = win2_2.index t (0 : Fin 2) * 512 + p.val
    omega
  · refine rhs_blk2 V c t (ix2 d q) _ rfl ?_
    show win2_2.index t (1 : Fin 2) * 1024 + 1 * q.val = win2_2.index t (1 : Fin 2) * 1024 + q.val
    omega

/-- An index of the output array is in a point's block iff each coordinate is in the block's range on its axis. -/
theorem mem_blk2 (t : Fin cfg2.N) (i : S4096x1024.Idx) :
    i ∈ ((cfg2.win 2).blk t).view.set ↔ ∀ a : Fin 2, win2_2.index t a * S512x1024.size a ≤ (i a).val
      ∧ (i a).val < win2_2.index t a * S512x1024.size a + S512x1024.size a := by
  show i ∈ ((View.whole main_v22).slice (win2_2.rect t)).set ↔ _
  rw [View.set_slice_whole, Rect.mem_set_unit]
  exact Iff.rfl

/-- The output's blocks cover its array: row `r` lies in row block `r / 512`, every column in the one column block. -/
theorem cover2 (i : S4096x1024.Idx) :
    ∃ t : Fin cfg2.N, (cfg2.win 2).flush t = true ∧ i ∈ ((cfg2.win 2).blk t).view.set := by
  have hi0 : (i 0).val < 4096 := (i 0).isLt
  have hi1 : (i 1).val < 1024 := (i 1).isLt
  obtain ⟨t, ht⟩ := idx_onto2 ⟨(i 0).val / 512, by omega⟩ ⟨(i 1).val / 1024, by omega⟩
  have q0 : win2_2.index t (0 : Fin 2) = (i 0).val / 512 := congrFun ht 0
  have q1 : win2_2.index t (1 : Fin 2) = (i 1).val / 1024 := congrFun ht 1
  refine ⟨t, flush2_2 t, ?_⟩
  rw [mem_blk2]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 1024 ≤ (i 1).val ∧ (i 1).val < win2_2.index t (1 : Fin 2) * 1024 + 1024; omega

/-- The third region's output array after the region: rows of the left array times the right array. -/
theorem final2 (c : Dev nD) :
    (dat2 (F := Ideal) V c).arrAt 2 cfg2.N = rowsTimes (R := 4096) (K := 1024) (N := 1024) (V c main_v21) (V c main_v2) :=
  (dat2 (F := Ideal) V c).arrAt_eq_of_cover 2 _ (fun t _ => flushed2_eq V c t) cover2

end Regions

end Cert.KernelIdeal.MatmulRegions

end
-- ==== Proof.AttnSpec.lean ====
/-
  Single-pass softmax attention for one query row, in the two arrangements the two programs compute it in,
  over the extended reals.

  For a query row `q` (64 entries), keys `k` (2048 rows of 64) and one column `v` of the values (2048 entries):
  the scores are the inner products of `q` with the key rows, scaled by 1/8; the weights are the exponentials of the
  scores minus their maximum; the result is the weighted sum of `v` divided by the sum of the weights.

  * One arrangement scales the QUERY before the inner product, forms the weighted sum of `v` with the unnormalised
    weights, and multiplies the sum by the reciprocal of the weights' total afterwards.
  * The other divides each inner product by the square root of 64, divides each weight by the weights' total (added to
    a zero start value), and only then forms the weighted sum; its maximum is taken once more against -∞.

  The float words are kept as words here; what they denote is a separate matter (1/8, 64, -∞, 0 and 1).
-/
import Idealize.ShloMosaic.PureOps.Ideal
import Idealize.ShloMosaic.Lib.ValueIdx

noncomputable section

open scoped BigOperators

namespace Cert.Attn

open Idealize.ShloMosaic

/-- The bf16 word of 1/8. -/
abbrev wEighth : EReal := Ideal.ofBits .bf16 0x3E00#16
/-- The f32 word of 64. -/
abbrev wSixtyFour : EReal := Ideal.ofBits .f32 0x42800000#32
/-- The f32 word of -∞. -/
abbrev wNegInf : EReal := Ideal.ofBits .f32 0xFF800000#32
/-- The f32 word of +0. -/
abbrev wZero : EReal := Ideal.ofBits .f32 0x00000000#32
/-- The f32 word of 1. -/
abbrev wOne : EReal := Ideal.ofBits .f32 0x3F800000#32

/-- The maximum of a row of 2048 scores, folded from -∞. -/
def rowMax (s : Fin 2048 → EReal) : EReal := (Finset.univ : Finset (Fin 2048)).fold max wNegInf s

/-- Scores with the query scaled first: `∑ⱼ (q j · ⅛) · k n j`. -/
def scoreScaledQuery (q : Fin 64 → EReal) (k : Fin 2048 → Fin 64 → EReal) (n : Fin 2048) : EReal :=
  ∑ j : Fin 64, (q j * wEighth) * k n j

/-- Scores with the inner product divided afterwards: `(∑ⱼ q j · k n j) / √64`. -/
def scoreDivided (q : Fin 64 → EReal) (k : Fin 2048 → Fin 64 → EReal) (n : Fin 2048) : EReal :=
  Ideal.div (∑ j : Fin 64, q j * k n j) (Ideal.sqrt wSixtyFour)

/-- Normalise last: `(∑ₙ exp(sₙ - m) · vₙ) · (1 / ∑ₙ exp(sₙ - m))`, `s` the scaled-query scores, `m` their maximum. -/
def attnNormalizeLast (q : Fin 64 → EReal) (k : Fin 2048 → Fin 64 → EReal) (v : Fin 2048 → EReal) : EReal :=
  (∑ n : Fin 2048, Ideal.exp (scoreScaledQuery q k n - rowMax (scoreScaledQuery q k)) * v n)
    * Ideal.div wOne (∑ n : Fin 2048, Ideal.exp (scoreScaledQuery q k n - rowMax (scoreScaledQuery q k)))

/-- Normalise first: `∑ₙ (exp(sₙ - m) / (0 + ∑ₙ' exp(sₙ' - m))) · vₙ`, `s` the divided scores, `m = max(-∞, max s)`. -/
def attnNormalizeFirst (q : Fin 64 → EReal) (k : Fin 2048 → Fin 64 → EReal) (v : Fin 2048 → EReal) : EReal :=
  ∑ n : Fin 2048,
    Ideal.div (Ideal.exp (scoreDivided q k n - max wNegInf (rowMax (scoreDivided q k))))
        (wZero + ∑ n' : Fin 2048, Ideal.exp (scoreDivided q k n' - max wNegInf (rowMax (scoreDivided q k))))
      * v n

end Cert.Attn

end
-- ==== Proof.LibKeepdims.lean ====
/-
  Column-shaped layout operations read at an index given by coordinates.

  A sum taken along the last axis with the axis kept (a "keepdims" row sum) leaves a COLUMN: the vector of
  sums `[a]` is re-laid as `[a, 1]` and then broadcast along the new unit axis to `[a, b]`. Read at `(p, c)`
  each of the two steps returns the operand's entry for row `p`, whatever the column `c`: the cast because
  the row-major position of `(p, 0)` in `[a, 1]` is `p · 1 + 0 = p`, the broadcast because a unit axis is read
  at `0` and every other axis at the result's own coordinate. (The transposed pair — a vector re-laid as one row
  `[1, b]` and that row broadcast over `a` rows — is already in the layout library.)
-/
import Idealize.ShloMosaic.Lib.Pipeline.Value
import Idealize.ShloMosaic.Lib.ValueIdx

namespace Cert.Lib.Keepdims

open Idealize.ShloMosaic Idealize.ShloMosaic.ValueIdx

variable {α : Type}

/-- An `[a]` vector cast to the column `[a, 1]` reads, at `(i, u)`, the operand at `i`: the unit coordinate `u`
    is `0`, and `(i, 0)` sits at row-major position `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry for row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LibAxisLayout.lean ====
/-
  Three-axis layout operations and single-axis reductions read at an index given by coordinates.

  A reduction of an [a, b, c] array along its middle or last axis leaves an [a, c] or [a, b] array; kept as a
  unit axis it is re-laid as [a, 1, c] or [a, b, 1] and broadcast back to [a, b, c]. Read at (i, j, k) each cast
  returns the operand's entry at the coordinates that remain — a unit coordinate is zero, so the row-major
  position is unchanged — and each broadcast reads the unit axis at 0 and the other axes at the result's own
  coordinates. A reduction over one axis, read at the kept coordinates, ranges over the dropped coordinate put
  back in its place.
-/
import Idealize.ShloMosaic.Lib.Pipeline.Value
import Idealize.ShloMosaic.Lib.ValueIdx
import Idealize.ShloMosaic.PureOps.Ideal.Laws

namespace Cert.Lib.AxisLayout

open Idealize.ShloMosaic Idealize.ShloMosaic.ValueIdx

variable {α : Type}

/-- Two indices of a one-axis shape with the same coordinate are equal. -/
theorem ext1 {n0 : ℕ} {f g : (⟨1, ![n0]⟩ : Shape).Idx} (h0 : (f 0).val = (g 0).val) : f = g :=
  funext fun a => Fin.ext (by match a with | ⟨0, _⟩ => exact h0)

/-- Two indices of a two-axis shape with the same coordinates are equal. -/
theorem ext2 {n0 n1 : ℕ} {f g : (⟨2, ![n0, n1]⟩ : Shape).Idx} (h0 : (f 0).val = (g 0).val) (h1 : (f 1).val = (g 1).val) : f = g :=
  funext fun a => Fin.ext (by match a with | ⟨0, _⟩ => exact h0 | ⟨1, _⟩ => exact h1)

/-- Two indices of a three-axis shape with the same coordinates are equal. -/
theorem ext3 {n0 n1 n2 : ℕ} {f g : (⟨3, ![n0, n1, n2]⟩ : Shape).Idx} (h0 : (f 0).val = (g 0).val) (h1 : (f 1).val = (g 1).val)
    (h2 : (f 2).val = (g 2).val) : f = g :=
  funext fun a => Fin.ext (by match a with | ⟨0, _⟩ => exact h0 | ⟨1, _⟩ => exact h1 | ⟨2, _⟩ => exact h2)

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, 1, c] array cast to [a, c] reads, at (i, k), the operand at (i, 0, k). -/
theorem shapeCast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, 1, c] array broadcast to [a, b, c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- Dropping the middle axis of [a, b, c]: the kept index (i, k) with coordinate j put back is (i, j, k). -/
theorem lift_abc_mid {a b c : ℕ} (h : (⟨3, ![a, b, c]⟩ : Shape).Reduces [1] (⟨2, ![a, c]⟩ : Shape)) (i : Fin a) (k : Fin c)
    (j : Fin ((⟨3, ![a, b, c]⟩ : Shape).size 1)) : h.lift (ix2 i k) j = ix3 i (⟨j.val, j.isLt⟩ : Fin b) k := by
  funext d; apply Fin.ext
  fin_cases d <;> rfl

/-- Dropping the last axis of [a, b, c]: the kept index (i, j) with coordinate k put back is (i, j, k). -/
theorem lift_abc_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- Dropping the last axis of [a, b]: the kept index i with coordinate k put back is (i, k). -/
theorem lift_ab_last {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext d; apply Fin.ext
  fin_cases d <;> rfl

variable {φ : FTy}

/-- A sum along the middle axis of [a, b, c], at (i, k), is the sum over j of the entries (i, j, k). -/
theorem sum_mid_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_abc_mid h i k j))

/-- A sum along the last axis of [a, b, c], at (i, j), is the sum over k of the entries (i, j, k). -/
theorem sum_last_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_abc_last h i j k))

/-- A sum along the last axis of [a, b], at i, is the sum over k of the entries (i, k). -/
theorem sum_row_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_ab_last h i k))

/-- A maximum along the middle axis of [a, b, c], at (i, k): the fold of max from the start value over the entries (i, j, k). -/
theorem max_mid_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (i : Fin a) (k : Fin c) :
    multiReduction .maximumf [1] ⟨2, ![a, c]⟩ src acc h hφ hacc (ix2 i k)
      = (Finset.univ : Finset (Fin b)).fold max (Ideal.ofBits φ acc) (fun j => src (ix3 i j k)) :=
  (Ideal.multiReduction_maximumf_single src acc h hφ hacc (ix2 i k)).trans
    (congrArg (fun f => (Finset.univ : Finset (Fin b)).fold max (Ideal.ofBits φ acc) f)
      (funext fun j => congrArg src (lift_abc_mid h i k j)))

/-- A maximum along the last axis of [a, b, c], at (i, j): the fold of max from the start value over the entries (i, j, k). -/
theorem max_last_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_abc_last h i j k)))

end Cert.Lib.AxisLayout
-- ==== Proof.LibRowMax.lean ====
/-
  The maximum along the last axis of a two-axis array, read at a row.

  A `multi_reduction <maximumf>` of an [a, b] array over axis 1, read at row i, is the fold of `max`, from the value
  of the accumulator's word, over the entries (i, k), k ranging over the b columns: the kept index i with the dropped
  coordinate k put back is (i, k).
-/
import Idealize.ShloMosaic.Lib.Pipeline.Value
import Idealize.ShloMosaic.Lib.ValueIdx
import Idealize.ShloMosaic.PureOps.Ideal.Laws

namespace Cert.Lib.RowMax

open Idealize.ShloMosaic Idealize.ShloMosaic.ValueIdx

/-- Dropping the last axis of [a, b]: the kept index i with coordinate k put back is (i, k). -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext d; apply Fin.ext
  fin_cases d <;> rfl

variable {φ : FTy}

/-- A maximum along the last axis of [a, b], at row i: the fold of max from the start value over the entries (i, k). -/
theorem max_row_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => (Finset.univ : Finset (Fin b)).fold max (Ideal.ofBits φ acc) f)
      (funext fun k => congrArg src (lift_row h i k)))

end Cert.Lib.RowMax
-- ==== Proof.AttnPayload.lean ====
/-
  The attention kernel's body as arithmetic: what it stores, entry by entry.

  The body loads a block of 1024 query rows (one head), that head's 2048 key rows and 2048 value rows, and stores a
  block of 1024 result rows. With q the query row p, K the key rows and v column j of the value rows, the stored
  entry (p, j) is the single-pass softmax attention in its normalise-last arrangement: the scores are the products of
  the query scaled by 1/8 with the transposed keys; their row maximum is subtracted; the exponentials are summed along
  the row, and separately multiplied into the values; the product is scaled by the reciprocal of the row's total.
  A change of float format is the identity on the extended reals.
-/
import proofs.«135831_j22239340659491_2_alg».proof.Proof.Gen.KernelIdeal.Skeleton
import proofs.«135831_j22239340659491_2_alg».proof.Proof.AttnSpec
import proofs.«135831_j22239340659491_2_alg».proof.Proof.LibPlainMatmul
import proofs.«135831_j22239340659491_2_alg».proof.Proof.LibKeepdims
import proofs.«135831_j22239340659491_2_alg».proof.Proof.LibAxisLayout
import proofs.«135831_j22239340659491_2_alg».proof.Proof.LibRowMax
import Idealize.ShloMosaic.Lib.ValueLayout
import Idealize.ShloMosaic.Lib.ValueIdx
import Idealize.ShloMosaic.Lib.Pipeline.Value

set_option maxRecDepth 16384

noncomputable section

open scoped BigOperators

namespace Cert.KernelIdeal.AttnPayload

open Cert.KernelIdeal Cert.KernelIdeal.Gen
open Idealize.ShloMosaic Idealize.ShloMosaic.ValueIdx Cert.Attn

variable (x0 : FVec Ideal S1x1024x64 .bf16) (x1 x2 : FVec Ideal S1x2048x64 .bf16)

/-- The query block scaled by 1/8. -/
def scaledQ : FVec Ideal S1024x64 .bf16 :=
  mulf (shapeCast S1024x64 x0 shapeCasts_S1x1024x64_S1024x64) (broadcast S1024x64 (Scalar.ofBits (F := Ideal) .bf16 0x3E00#16))
/-- The keys transposed. -/
def keysT : FVec Ideal S64x2048 .bf16 :=
  transpose S64x2048 [1, 0] (shapeCast S2048x64 x1 shapeCasts_S1x2048x64_S2048x64) transposes_S2048x64_p1_0_S64x2048
/-- The scores. -/
def scores : FVec Ideal S1024x2048 .f32 :=
  matmul dot_S1024x64_S64x2048_S1024x2048_1_0_0_1_n_n none (scaledQ x0) (keysT x1) (constant S1024x2048 .f32 0x00000000#32)
/-- Each row's maximum score. -/
def rowMaxes : FVec Ideal S1024 .f32 :=
  multiReduction .maximumf [1] S1024 (scores x0 x1) 0xFF800000#32 reduces_S1024x2048_S1024 (.inl rfl) rfl
/-- The unnormalised weights. -/
def weights : FVec Ideal S1024x2048 .f32 :=
  exp (subf (scores x0 x1) (broadcastTo S1024x2048 (shapeCast S1024x1 (rowMaxes x0 x1) shapeCasts_S1024_S1024x1) broadcasts_S1024x1_S1024x2048))
/-- Each row's total weight. -/
def totals : FVec Ideal S1024 .f32 :=
  multiReduction .add [1] S1024 (weights x0 x1) 0x00000000#32 reduces_S1024x2048_S1024 (.inl rfl) rfl
/-- The weights times the values. -/
def weighted : FVec Ideal S1024x64 .f32 :=
  matmul dot_S1024x2048_S2048x64_S1024x64_1_0_0_1_n_n none (truncf .bf16 (weights x0 x1) bitsLt_bf16_f32)
    (shapeCast S2048x64 x2 shapeCasts_S1x2048x64_S2048x64) (constant S1024x64 .f32 0x00000000#32)

/-- The body's stored value is these steps composed. -/
theorem pay_eq : k1_pay1 (F := Ideal) x0 x1 x2
    = shapeCast S1x1024x64
        (truncf .bf16
          (mulf (weighted x0 x1 x2)
            (broadcastTo S1024x64
              (divf (broadcast S1024x1 (Scalar.ofBits (F := Ideal) .f32 0x3F800000#32)) (shapeCast S1024x1 (totals x0 x1) shapeCasts_S1024_S1024x1))
              broadcasts_S1024x1_S1024x64))
          bitsLt_bf16_f32)
        shapeCasts_S1024x64_S1x1024x64 := rfl

/-- Query row `p` of the loaded block. -/
abbrev qRow (p : Fin 1024) : Fin 64 → EReal := fun j' => x0 (ix3 (0 : Fin 1) p j')
/-- The loaded key rows. -/
abbrev kRows : Fin 2048 → Fin 64 → EReal := fun n j' => x1 (ix3 (0 : Fin 1) n j')
/-- Column `j` of the loaded value rows. -/
abbrev vCol (j : Fin 64) : Fin 2048 → EReal := fun n => x2 (ix3 (0 : Fin 1) n j)

theorem scores_apply (p : Fin 1024) (n : Fin 2048) : scores x0 x1 (ix2 p n) = scoreScaledQuery (qRow x0 p) (kRows x1) n := by
  unfold scores
  refine (PlainMatmul.matmul_zero_apply dot_S1024x64_S64x2048_S1024x2048_1_0_0_1_n_n rfl rfl rfl rfl rfl rfl none (scaledQ x0) (keysT x1) p n).trans ?_
  unfold scoreScaledQuery
  refine Finset.sum_congr rfl fun j _ => ?_
  have e1 : scaledQ x0 (ix2 p j) = x0 (ix3 (0 : Fin 1) p j) * wEighth := by
    unfold scaledQ
    refine (mulf_apply _ _ _).trans ?_
    exact congrArg (· * wEighth) (shapeCast_1ab_ab_apply x0 shapeCasts_S1x1024x64_S1024x64 p j)
  have e2 : keysT x1 (ix2 j n) = x1 (ix3 (0 : Fin 1) n j) := by
    unfold keysT
    refine (transpose_ix2_apply _ transposes_S2048x64_p1_0_S64x2048 j n).trans ?_
    exact shapeCast_1ab_ab_apply x1 shapeCasts_S1x2048x64_S2048x64 n j
  rw [e1, e2]

theorem rowMaxes_apply (p : Fin 1024) : rowMaxes x0 x1 (ix1 p) = rowMax (scoreScaledQuery (qRow x0 p) (kRows x1)) := by
  unfold rowMaxes rowMax
  refine (Cert.Lib.RowMax.max_row_apply (scores x0 x1) 0xFF800000#32 reduces_S1024x2048_S1024 (.inl rfl) rfl p).trans ?_
  exact congrArg (fun f => (Finset.univ : Finset (Fin 2048)).fold max wNegInf f) (funext fun n => scores_apply x0 x1 p n)

theorem weights_apply (p : Fin 1024) (n : Fin 2048) :
    weights x0 x1 (ix2 p n)
      = Ideal.exp (scoreScaledQuery (qRow x0 p) (kRows x1) n - rowMax (scoreScaledQuery (qRow x0 p) (kRows x1))) := by
  unfold weights
  show Ideal.exp (scores x0 x1 (ix2 p n) - broadcastTo S1024x2048 (shapeCast S1024x1 (rowMaxes x0 x1) shapeCasts_S1024_S1024x1) broadcasts_S1024x1_S1024x2048 (ix2 p n)) = _
  rw [scores_apply, Cert.Lib.Keepdims.broadcastTo_a1_ab_apply, Cert.Lib.Keepdims.shapeCast_a_a1_apply, rowMaxes_apply]

theorem totals_apply (p : Fin 1024) :
    totals x0 x1 (ix1 p)
      = ∑ n : Fin 2048, Ideal.exp (scoreScaledQuery (qRow x0 p) (kRows x1) n - rowMax (scoreScaledQuery (qRow x0 p) (kRows x1))) := by
  unfold totals
  refine (Cert.Lib.AxisLayout.sum_row_apply (weights x0 x1) 0x00000000#32 reduces_S1024x2048_S1024 (.inl rfl) rfl p).trans ?_
  exact Finset.sum_congr rfl fun n _ => weights_apply x0 x1 p n

theorem weighted_apply (p : Fin 1024) (j : Fin 64) :
    weighted x0 x1 x2 (ix2 p j)
      = ∑ n : Fin 2048, Ideal.exp (scoreScaledQuery (qRow x0 p) (kRows x1) n - rowMax (scoreScaledQuery (qRow x0 p) (kRows x1))) * vCol x2 j n := by
  unfold weighted
  refine (PlainMatmul.matmul_zero_apply dot_S1024x2048_S2048x64_S1024x64_1_0_0_1_n_n rfl rfl rfl rfl rfl rfl none _ _ p j).trans ?_
  refine Finset.sum_congr rfl fun n _ => ?_
  have e1 : (truncf .bf16 (weights x0 x1) bitsLt_bf16_f32 : FVec Ideal S1024x2048 .bf16) (ix2 p n) = weights x0 x1 (ix2 p n) := rfl
  rw [e1, weights_apply, shapeCast_1ab_ab_apply x2 shapeCasts_S1x2048x64_S2048x64 n j]

/-- THE STORED ENTRY (p, j): normalise-last softmax attention of query row p against the loaded keys and column j of the values. -/
theorem pay_apply (u : Fin 1) (p : Fin 1024) (j : Fin 64) :
    k1_pay1 (F := Ideal) x0 x1 x2 (ix3 u p j) = attnNormalizeLast (qRow x0 p) (kRows x1) (vCol x2 j) := by
  rw [pay_eq]
  refine (shapeCast_ab_1ab_apply _ shapeCasts_S1024x64_S1x1024x64 u p j).trans ?_
  show weighted x0 x1 x2 (ix2 p j)
      * broadcastTo S1024x64 (divf (broadcast S1024x1 (Scalar.ofBits (F := Ideal) .f32 0x3F800000#32)) (shapeCast S1024x1 (totals x0 x1) shapeCasts_S1024_S1024x1)) broadcasts_S1024x1_S1024x64 (ix2 p j) = _
  rw [weighted_apply, Cert.Lib.Keepdims.broadcastTo_a1_ab_apply]
  show _ * Ideal.div wOne (shapeCast S1024x1 (totals x0 x1) shapeCasts_S1024_S1024x1 (ix2 p (0 : Fin 1))) = _
  rw [Cert.Lib.Keepdims.shapeCast_a_a1_apply, totals_apply]
  rfl

end Cert.KernelIdeal.AttnPayload

end
-- ==== Proof.AttnRegion.lean ====
/-
  What the attention region leaves in its output array.

  The region runs the attention body at the 64 points of a 32 × 2 grid. At point (g, r) the body sees block r (1024
  rows) of the queries of merged head g, all 2048 key rows and all 2048 value rows of that head, and writes block r
  of the output of head g. Entry by entry the stored block is single-pass softmax attention in its normalise-last
  arrangement; the 64 blocks tile the output array, so the array ends holding one function of the three input arrays.
-/
import proofs.«135831_j22239340659491_2_alg».proof.Proof.Gen.KernelIdeal.Frame
import proofs.«135831_j22239340659491_2_alg».proof.Proof.AttnPayload
import Idealize.ShloMosaic.Lib.Pipeline.Value
import Idealize.ShloMosaic.Lib.ValueIdx

set_option maxRecDepth 16384

noncomputable section

open scoped BigOperators

namespace Cert.KernelIdeal.AttnRegion

open Cert.KernelIdeal Cert.KernelIdeal.Gen Idealize.ShloMosaic Idealize.ShloMosaic.TcCoe Idealize.ShloMosaic.ValueIdx Idealize.SL.Sem
open Idealize.ShloMosaic.Pipeline (Dat Cfg Window)

/-- attention per merged head: entry (g, s, j) is the normalise-last attention of query row (g, s), the keys of head g and column j of its values -/
def attnRows (Q K W : (⟨3, ![32, 2048, 64]⟩ : Shape).Idx → EReal) : (⟨3, ![32, 2048, 64]⟩ : Shape).Idx → EReal :=
  fun i => Cert.Attn.attnNormalizeLast (fun j' : Fin 64 => Q (ix3 (i 0) (i 1) j'))
    (fun (n : Fin 2048) (j' : Fin 64) => K (ix3 (i 0) n j')) (fun n : Fin 2048 => W (ix3 (i 0) n (i 2)))

theorem attnRows_apply (Q K W : (⟨3, ![32, 2048, 64]⟩ : Shape).Idx → EReal) (g : Fin 32) (s : Fin 2048) (j : Fin 64) :
    attnRows Q K W (ix3 g s j)
      = Cert.Attn.attnNormalizeLast (fun j' : Fin 64 => Q (ix3 g s j')) (fun (n : Fin 2048) (j' : Fin 64) => K (ix3 g n j'))
          (fun n : Fin 2048 => W (ix3 g n j)) := rfl

/-- The zero offsets of a whole-buffer access, as a constant function. -/
theorem zero_offsets : (![0, 0, 0] : Fin 3 → Nat) = fun _ => 0 := funext fun a => by fin_cases a <;> rfl

/-- The index maps at the 64 grid points: the query window moves with the output window, the key
    and value windows follow its head and stay at block 0 on the other axes, and the output's block indices stay in
    their ranges. -/
theorem index_facts : ∀ t : Fin cfg1.N, win1_0.index t (0 : Fin 3) = win1_3.index t (0 : Fin 3)
    ∧ win1_0.index t (1 : Fin 3) = win1_3.index t (1 : Fin 3)
    ∧ win1_0.index t (2 : Fin 3) = 0
    ∧ win1_1.index t (0 : Fin 3) = win1_3.index t (0 : Fin 3)
    ∧ win1_1.index t (1 : Fin 3) = 0
    ∧ win1_1.index t (2 : Fin 3) = 0
    ∧ win1_2.index t (0 : Fin 3) = win1_3.index t (0 : Fin 3)
    ∧ win1_2.index t (1 : Fin 3) = 0
    ∧ win1_2.index t (2 : Fin 3) = 0
    ∧ win1_3.index t (2 : Fin 3) = 0
    ∧ win1_3.index t (0 : Fin 3) ≤ 31
    ∧ win1_3.index t (1 : Fin 3) ≤ 1 :=
  (by decide +kernel : ∀ t : Fin grid1.N, _)

/-- Every block of the output array is some point's. -/
theorem index_onto : ∀ (q0 : Fin 32) (q1 : Fin 2), ∃ t : Fin cfg1.N, win1_3.index t = ![q0.val, q1.val, 0] :=
  (by decide +kernel : ∀ (q0 : Fin 32) (q1 : Fin 2), ∃ t : Fin grid1.N, win1_3.index t = ![q0.val, q1.val, 0])

section
variable (V : (c : Dev nD) → (b : Ref sig .tc) → Buf (Elt Ideal) ((c : Thread nD τ).loc b))

/-- The query block at point t, row p, is rows block·1024 + p of head g of the query array. -/
theorem query_block_read (c : Dev nD) (t : Fin cfg1.N) (g : Fin 32) (s : Fin 2048) (p : Fin 1024) (j' : Fin 64)
    (hg : g.val = win1_3.index t (0 : Fin 3)) (hs : s.val = win1_3.index t (1 : Fin 3) * 1024 + p.val) :
    iblk1 V c 0 t (ix3 (0 : Fin 1) p j') = V c main_v11 (ix3 g s j') := by
  obtain ⟨e0, e1, e2, -⟩ := index_facts t
  show V c main_v11 (((cfg1.win 0).blk t).view.emb (ix3 (0 : Fin 1) p j')) = _
  refine congrArg (V c main_v11) (funext fun a => Fin.ext ?_)
  match a with
  | ⟨0, _⟩ => show win1_0.index t (0 : Fin 3) * 1 + 1 * 0 = g.val; omega
  | ⟨1, _⟩ => show win1_0.index t (1 : Fin 3) * 1024 + 1 * p.val = s.val; omega
  | ⟨2, _⟩ => show win1_0.index t (2 : Fin 3) * 64 + 1 * j'.val = j'.val; omega

/-- The key block at point t is the key rows of head g. -/
theorem key_block_read (c : Dev nD) (t : Fin cfg1.N) (g : Fin 32) (n : Fin 2048) (j' : Fin 64)
    (hg : g.val = win1_3.index t (0 : Fin 3)) :
    iblk1 V c 1 t (ix3 (0 : Fin 1) n j') = V c main_v14 (ix3 g n j') := by
  obtain ⟨-, -, -, e0, e1, e2, -⟩ := index_facts t
  show V c main_v14 (((cfg1.win 1).blk t).view.emb (ix3 (0 : Fin 1) n j')) = _
  refine congrArg (V c main_v14) (funext fun a => Fin.ext ?_)
  match a with
  | ⟨0, _⟩ => show win1_1.index t (0 : Fin 3) * 1 + 1 * 0 = g.val; omega
  | ⟨1, _⟩ => show win1_1.index t (1 : Fin 3) * 2048 + 1 * n.val = n.val; omega
  | ⟨2, _⟩ => show win1_1.index t (2 : Fin 3) * 64 + 1 * j'.val = j'.val; omega

/-- The value block at point t is the value rows of head g. -/
theorem value_block_read (c : Dev nD) (t : Fin cfg1.N) (g : Fin 32) (n : Fin 2048) (j : Fin 64)
    (hg : g.val = win1_3.index t (0 : Fin 3)) :
    iblk1 V c 2 t (ix3 (0 : Fin 1) n j) = V c main_v17 (ix3 g n j) := by
  obtain ⟨-, -, -, -, -, -, e0, e1, e2, -⟩ := index_facts t
  show V c main_v17 (((cfg1.win 2).blk t).view.emb (ix3 (0 : Fin 1) n j)) = _
  refine congrArg (V c main_v17) (funext fun a => Fin.ext ?_)
  match a with
  | ⟨0, _⟩ => show win1_2.index t (0 : Fin 3) * 1 + 1 * 0 = g.val; omega
  | ⟨1, _⟩ => show win1_2.index t (1 : Fin 3) * 2048 + 1 * n.val = n.val; omega
  | ⟨2, _⟩ => show win1_2.index t (2 : Fin 3) * 64 + 1 * j.val = j.val; omega

/-- An element (u, p, j) of the output block at point t sits at (block index 0, block index 1 · 1024 + p, j) of the array. -/
theorem out_block_emb (t : Fin cfg1.N) (g : Fin 32) (s : Fin 2048) (u : Fin 1) (p : Fin 1024) (j : Fin 64)
    (hg : g.val = win1_3.index t (0 : Fin 3)) (hs : s.val = win1_3.index t (1 : Fin 3) * 1024 + p.val) :
    ((cfg1.win 3).blk t).view.emb (ix3 u p j) = ix3 g s j := by
  obtain ⟨-, -, -, -, -, -, -, -, -, e2, -⟩ := index_facts t
  have hu : u.val = 0 := by omega
  refine funext fun a => Fin.ext ?_
  match a with
  | ⟨0, _⟩ => show win1_3.index t (0 : Fin 3) * 1 + 1 * u.val = g.val; omega
  | ⟨1, _⟩ => show win1_3.index t (1 : Fin 3) * 1024 + 1 * p.val = s.val; omega
  | ⟨2, _⟩ => show win1_3.index t (2 : Fin 3) * 64 + 1 * j.val = j.val; omega

/-- What grid point t writes back is block t of the attention of the three arrays as the region finds them. -/
theorem flushed_eq (c : Dev nD) (t : Fin cfg1.N) :
    (dat1 V c).flushed 3 t
      = ((cfg1.win 3).blk t).view.read (Elt Ideal) (attnRows (V c main_v11) (V c main_v14) (V c main_v17)) := by
  show (cfg1.win 3).cut (grid1.coords t) ((dat1 V c).after 3 t) = _
  rw [after1_3]
  unfold out1_3
  rw [View.canon_unit_zero zero_offsets]
  simp only [View.ld_unit_zero (S := S1x1024x64) zero_offsets, View.ld_unit_zero (S := S1x2048x64) zero_offsets]
  obtain ⟨-, -, -, -, -, -, -, -, -, -, b0, b1⟩ := index_facts t
  funext y
  obtain ⟨u, p, j, rfl⟩ : ∃ (u : Fin 1) (p : Fin 1024) (j : Fin 64), y = ix3 u p j := ⟨y 0, y 1, y 2, eq_ix3 y⟩
  have hp : p.val < 1024 := p.isLt
  show k1_pay1 (iblk1 V c 0 t) (iblk1 V c 1 t) (iblk1 V c 2 t) (ix3 u p j)
    = attnRows (V c main_v11) (V c main_v14) (V c main_v17) (((cfg1.win 3).blk t).view.emb (ix3 u p j))
  refine (Cert.KernelIdeal.AttnPayload.pay_apply _ _ _ u p j).trans ?_
  rw [out_block_emb t ⟨win1_3.index t (0 : Fin 3), by omega⟩ ⟨win1_3.index t (1 : Fin 3) * 1024 + p.val, by omega⟩ u p j rfl rfl,
    attnRows_apply]
  refine congr (congr (congrArg Cert.Attn.attnNormalizeLast (funext fun j' => ?_)) (funext fun n => funext fun j' => ?_)) (funext fun n => ?_)
  · exact query_block_read V c t _ _ p j' rfl rfl
  · exact key_block_read V c t _ n j' rfl
  · exact value_block_read V c t _ n j rfl

/-- An index of the array is in point t's block iff each coordinate is in the block's range on its axis. -/
theorem mem_block (t : Fin cfg1.N) (i : S32x2048x64.Idx) :
    i ∈ ((cfg1.win 3).blk t).view.set ↔ ∀ a : Fin 3, win1_3.index t a * S1x1024x64.size a ≤ (i a).val
      ∧ (i a).val < win1_3.index t a * S1x1024x64.size a + S1x1024x64.size a := by
  show i ∈ ((View.whole main_v18).slice (win1_3.rect t)).set ↔ _
  rw [View.set_slice_whole, Rect.mem_set_unit]
  exact Iff.rfl

/-- The 64 blocks tile the array: index (g, s, j) is in the block of the point with block index (g, s / 1024, 0). -/
theorem covered (i : S32x2048x64.Idx) :
    ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  obtain ⟨t, ht⟩ := index_onto ⟨(i 0).val, hi0⟩ ⟨(i 1).val / 1024, by omega⟩
  have q0 : win1_3.index t (0 : Fin 3) = (i 0).val := congrFun ht 0
  have q1 : win1_3.index t (1 : Fin 3) = (i 1).val / 1024 := congrFun ht 1
  have q2 : win1_3.index t (2 : Fin 3) = 0 := congrFun ht 2
  refine ⟨t, flush1_3 t, ?_⟩
  rw [mem_block]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 64 ≤ (i 2).val ∧ (i 2).val < win1_3.index t (2 : Fin 3) * 64 + 64; omega

/-- The output array after the region: the attention, head by head, of the three arrays the region finds. -/
theorem final1 (c : Dev nD) :
    (dat1 (F := Ideal) V c).arrAt 3 cfg1.N = attnRows (V c main_v11) (V c main_v14) (V c main_v17) :=
  (dat1 V c).arrAt_eq_of_cover 3 _ (fun t _ => flushed_eq V c t) covered

end

end Cert.KernelIdeal.AttnRegion

end
-- ==== Proof.FiniteInputs.lean ====
/-
  The precondition "every input entry is finite", read back: when the printed predicate holds, every entry of the
  three input arrays is a real number.
-/
import proofs.«135831_j22239340659491_2_alg».proof.Pre_finite_inputs
import proofs.«135831_j22239340659491_2_alg».proof.Proof.Gen.Pre_finite_inputs
import Idealize.ShloMosaic.PureOps.Ideal
import Idealize.ShloMosaic.Lib.ReduceAll
import Idealize.ShloMosaic.Lib.ValueIdx

noncomputable section

namespace Cert.FiniteInputs

open Idealize.ShloMosaic

open Cert.Pre_finite_inputs

/-- Any two indices of the scalar shape are equal. -/
instance : Subsingleton S_.Idx := ⟨fun a b => funext fun d => d.elim0⟩

/-- The f32 word `0x7F800000` denotes `+∞`. -/
theorem ofBits_posInf : Ideal.ofBits .f32 0x7F800000#32 = ⊤ := by
  simp [Ideal.ofBits, Ideal.ieee]

/-- An extended real whose absolute value `max x (-x)` is below `+∞` is a real number: at `-∞` and at `+∞` the
    absolute value is `+∞` itself. -/
theorem real_of_abs_lt_posInf (x : EReal)
    (h : Ideal.cmp .olt (max x (-x)) (Ideal.ofBits .f32 0x7F800000#32) = 1#1) : ∃ r : ℝ, x = (r : EReal) := by
  rw [ofBits_posInf] at h
  induction x using EReal.rec with
  | bot => simp [Ideal.cmp] at h
  | coe r => exact ⟨r, rfl⟩
  | top => simp [Ideal.cmp] at h

/-- When the printed precondition holds, every entry of the three input arrays is a real number. -/
theorem real_of_fn (a0 : FVec Ideal Cert.Pre_finite_inputs.S2x2048x1024 .f32)
    (a1 : FVec Ideal Cert.Pre_finite_inputs.S1024x3072 .f32) (a2 : FVec Ideal Cert.Pre_finite_inputs.S1024x1024 .f32)
    (h : Cert.Pre_finite_inputs.fn (F := Ideal) a0 a1 a2 = (fun _ => 1#1)) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  change IntOp.andi (IntOp.andi _ _) _ = 1#1 at h0
  rw [IntOp.andi_eq_one, IntOp.andi_eq_one] at h0
  obtain ⟨⟨e0, e1⟩, e2⟩ := h0
  refine ⟨fun i => ?_, fun i => ?_, fun i => ?_⟩
  · exact real_of_abs_lt_posInf (a0 i) (Host.reduce_andi_all _ _ _ _ _ e0 i)
  · exact real_of_abs_lt_posInf (a1 i) (Host.reduce_andi_all _ _ _ _ _ e1 i)
  · exact real_of_abs_lt_posInf (a2 i) (Host.reduce_andi_all _ _ _ _ _ e2 i)

end Cert.FiniteInputs

end
-- ==== Proof.RefAttn.lean ====
/-
  The reference program's stages read at coordinates.

  The reference computes multi-head softmax attention with stock array operations: a projection of the input into
  queries, keys and values, a split into 16 heads of 64 columns, the scores of every query row against the keys of
  its head divided by the square root of 64, a softmax along the key axis (maximum, subtraction, exponential, sum,
  division), the weighted sum of the values, the heads merged back, and an output projection. Each lemma here
  reads one stage at an index given by its coordinates, down to the single-row attention of the specification.
-/
import proofs.«135831_j22239340659491_2_alg».proof.Proof.Gen.ReferenceIdeal.Read
import proofs.«135831_j22239340659491_2_alg».proof.Proof.AttnSpec
import Idealize.ShloMosaic.Lib.Pipeline.Value
import Idealize.ShloMosaic.Lib.ValueIdx
import Idealize.ShloMosaic.PureOps.Ideal.Laws

noncomputable section

open scoped BigOperators

namespace Cert.RefAttn

open Cert.ReferenceIdeal Cert.ReferenceIdeal.Gen Cert.ReferenceIdeal.Read Idealize.ShloMosaic Idealize.ShloMosaic.ValueIdx

/-- The input array, 2 × 2048 × 1024. -/
abbrev X0 : Type := (⟨S2x2048x1024, .f32⟩ : BufTy).Contents (Elt Ideal)
/-- The fused query/key/value projection, 1024 × 3072. -/
abbrev X1 : Type := (⟨S1024x3072, .f32⟩ : BufTy).Contents (Elt Ideal)
/-- The output projection, 1024 × 1024. -/
abbrev X2 : Type := (⟨S1024x1024, .f32⟩ : BufTy).Contents (Elt Ideal)

/-! ## Index equations: each computed index, at an index given by coordinates, is again given by coordinates -/

theorem lidx10 (b : Fin 2) (h : Fin 16) (s n : Fin 2048) (k : Fin 64) :
    lidx_main_v10 (ix4 b h s n) k = ix4 b h s k :=
  funext fun a => Fin.ext (by match a with | ⟨0, _⟩ => rfl | ⟨1, _⟩ => rfl | ⟨2, _⟩ => rfl | ⟨3, _⟩ => rfl)

theorem ridx10 (b : Fin 2) (h : Fin 16) (s n : Fin 2048) (k : Fin 64) :
    ridx_main_v10 (ix4 b h s n) k = ix4 b h n k :=
  funext fun a => Fin.ext (by match a with | ⟨0, _⟩ => rfl | ⟨1, _⟩ => rfl | ⟨2, _⟩ => rfl | ⟨3, _⟩ => rfl)

theorem idx17_18 (b : Fin 2) (h : Fin 16) (s n : Fin 2048) :
    idx_main_v17 (idx_main_v18 (ix4 b h s n)) = ix3 b h s :=
  funext fun a => Fin.ext (by match a with | ⟨0, _⟩ => rfl | ⟨1, _⟩ => rfl | ⟨2, _⟩ => rfl)

theorem idx22_23 (b : Fin 2) (h : Fin 16) (s n : Fin 2048) :
    idx_main_v22 (idx_main_v23 (ix4 b h s n)) = ix3 b h s :=
  funext fun a => Fin.ext (by match a with | ⟨0, _⟩ => rfl | ⟨1, _⟩ => rfl | ⟨2, _⟩ => rfl)

theorem idx21 (b : Fin 2) (h : Fin 16) (s k : Fin 2048) :
    idx_main_v21 (ix3 b h s) k = ix4 b h s k :=
  funext fun a => Fin.ext (by match a with | ⟨0, _⟩ => rfl | ⟨1, _⟩ => rfl | ⟨2, _⟩ => rfl | ⟨3, _⟩ => rfl)

theorem lidx25 (b : Fin 2) (h : Fin 16) (s : Fin 2048) (j : Fin 64) (k : Fin 2048) :
    lidx_main_v25 (ix4 b h s j) k = ix4 b h s k :=
  funext fun a => Fin.ext (by match a with | ⟨0, _⟩ => rfl | ⟨1, _⟩ => rfl | ⟨2, _⟩ => rfl | ⟨3, _⟩ => rfl)

theorem ridx25 (b : Fin 2) (h : Fin 16) (s : Fin 2048) (j : Fin 64) (k : Fin 2048) :
    ridx_main_v25 (ix4 b h s j) k = ix4 b h k j :=
  funext fun a => Fin.ext (by match a with | ⟨0, _⟩ => rfl | ⟨1, _⟩ => rfl | ⟨2, _⟩ => rfl | ⟨3, _⟩ => rfl)

/-! ## The scores, their row maximum, the weights and their total -/

/-- The reference's scaled score at (b, h, s, n) is the inner product of query row (b, h, s) with key row (b, h, n),
    divided by the square root of 64. -/
theorem val_main_v13_at (x0 : X0) (x1 : X1) (b : Fin 2) (h : Fin 16) (s n : Fin 2048) :
    val_main_v13 (F := Ideal) x0 x1 (ix4 b h s n)
      = Cert.Attn.scoreDivided (fun j' : Fin 64 => val_main_v5 (F := Ideal) x0 x1 (ix4 b h s j'))
          (fun (n : Fin 2048) (j' : Fin 64) => val_main_v7 (F := Ideal) x0 x1 (ix4 b h n j')) n := by
  rw [val_main_v13_apply, val_main_v10_apply, val_main_v12_apply, val_main_v11_apply, val_main_cst_apply]
  unfold Cert.Attn.scoreDivided
  rw [Ideal.hostDivf_def, Ideal.hostUnary_sqrt_def, Ideal.ofBits_def]
  refine congrArg (fun t => Ideal.div t _) (Finset.sum_congr rfl fun k _ => ?_)
  rw [lidx10, ridx10]

/-- [2, 16, 2048, 2048] reduced along its last axis is [2, 16, 2048]. -/
theorem reduces_d3 : S2x16x2048x2048.Reduces [3] S2x16x2048 := by decide

/-- Dropping the last axis of [2, 16, 2048, 2048]: the kept index (b, h, s) with coordinate k put back is (b, h, s, k). -/
theorem lift_d3 (b : Fin 2) (h : Fin 16) (s : Fin 2048) (k : Fin (S2x16x2048x2048.size 3)) :
    reduces_d3.lift (ix3 b h s) k = ix4 b h s (⟨k.val, k.isLt⟩ : Fin 2048) := by
  funext d; apply Fin.ext
  fin_cases d <;> rfl

/-- The reference's row maximum at (b, h, s) is the maximum, folded from -∞, of the scores of row (b, h, s). -/
theorem val_main_v14_at (x0 : X0) (x1 : X1) (b : Fin 2) (h : Fin 16) (s : Fin 2048) :
    val_main_v14 (F := Ideal) x0 x1 (ix3 b h s)
      = Cert.Attn.rowMax (fun n : Fin 2048 => val_main_v13 (F := Ideal) x0 x1 (ix4 b h s n)) := by
  unfold val_main_v14
  generalize val_main_v13 (F := Ideal) x0 x1 = y
  refine (Host.reduce_eq_fold_single (FloatOps.maximumf (F := Ideal) (φ := .f32)) y (val_main_cst_0 (F := Ideal))
    reducesTo_S2x16x2048x2048_S2x16x2048_d3 reduces_d3 h_S_ (ix3 b h s)).trans ?_
  unfold Cert.Attn.rowMax
  refine congrArg (fun f => (Finset.univ : Finset (Fin 2048)).fold max _ f) (funext fun k => ?_)
  exact congrArg y (lift_d3 b h s k)

/-- The subtracted maximum at (b, h, s, n): the row maximum of row (b, h, s), taken once more against -∞. -/
theorem val_main_v18_at (x0 : X0) (x1 : X1) (b : Fin 2) (h : Fin 16) (s n : Fin 2048) :
    val_main_v18 (F := Ideal) x0 x1 (ix4 b h s n)
      = max Cert.Attn.wNegInf (Cert.Attn.rowMax (fun n : Fin 2048 => val_main_v13 (F := Ideal) x0 x1 (ix4 b h s n))) := by
  rw [val_main_v18_apply, val_main_v17_apply, idx17_18, val_main_v16_apply, val_main_v14_at, val_main_v15_apply,
    val_main_cst_1_apply, Ideal.maximumf_def, Ideal.ofBits_def]

/-- The unnormalised weight at (b, h, s, n): the exponential of the score minus the subtracted maximum. -/
theorem val_main_v20_at (x0 : X0) (x1 : X1) (b : Fin 2) (h : Fin 16) (s n : Fin 2048) :
    val_main_v20 (F := Ideal) x0 x1 (ix4 b h s n)
      = Ideal.exp (val_main_v13 (F := Ideal) x0 x1 (ix4 b h s n)
          - max Cert.Attn.wNegInf (Cert.Attn.rowMax (fun n : Fin 2048 => val_main_v13 (F := Ideal) x0 x1 (ix4 b h s n)))) := by
  rw [val_main_v20_apply, val_main_v19_apply, val_main_v18_at, Ideal.hostUnary_exp_def, Ideal.subf_def]

/-- The weights' total at (b, h, s, n): the zero start value plus the sum of the unnormalised weights of row (b, h, s). -/
theorem val_main_v23_at (x0 : X0) (x1 : X1) (b : Fin 2) (h : Fin 16) (s n : Fin 2048) :
    val_main_v23 (F := Ideal) x0 x1 (ix4 b h s n)
      = Cert.Attn.wZero + ∑ n' : Fin 2048, val_main_v20 (F := Ideal) x0 x1 (ix4 b h s n') := by
  rw [val_main_v23_apply, val_main_v22_apply, idx22_23, val_main_v21_apply, val_main_cst_2_apply, Ideal.ofBits_def]
  refine congrArg (fun t => Cert.Attn.wZero + t) (Finset.sum_congr rfl fun k _ => ?_)
  rw [idx21]

/-- The normalised weight at (b, h, s, n). -/
theorem val_main_v24_at (x0 : X0) (x1 : X1) (b : Fin 2) (h : Fin 16) (s n : Fin 2048) :
    val_main_v24 (F := Ideal) x0 x1 (ix4 b h s n)
      = Ideal.div (val_main_v20 (F := Ideal) x0 x1 (ix4 b h s n))
          (Cert.Attn.wZero + ∑ n' : Fin 2048, val_main_v20 (F := Ideal) x0 x1 (ix4 b h s n')) := by
  rw [val_main_v24_apply, val_main_v23_at, Ideal.hostDivf_def]

/-! ## The attention core -/

/-- the attention core: entry (b,h,s,j) of the reference's weighted values is the normalise-first softmax attention of
    query row (b,h,s), the keys of head (b,h) and column j of its values -/
theorem val_main_v25_at (x0 : X0) (x1 : X1) (b : Fin 2) (h : Fin 16) (s : Fin 2048) (j : Fin 64) :
    val_main_v25 (F := Ideal) x0 x1 (ix4 b h s j)
      = Cert.Attn.attnNormalizeFirst (fun j' : Fin 64 => val_main_v5 (F := Ideal) x0 x1 (ix4 b h s j'))
          (fun (n : Fin 2048) (j' : Fin 64) => val_main_v7 (F := Ideal) x0 x1 (ix4 b h n j'))
          (fun n : Fin 2048 => val_main_v9 (F := Ideal) x0 x1 (ix4 b h n j)) := by
  rw [val_main_v25_apply]
  unfold Cert.Attn.attnNormalizeFirst
  have hs : (fun n : Fin 2048 => val_main_v13 (F := Ideal) x0 x1 (ix4 b h s n))
      = Cert.Attn.scoreDivided (fun j' : Fin 64 => val_main_v5 (F := Ideal) x0 x1 (ix4 b h s j'))
          (fun (n : Fin 2048) (j' : Fin 64) => val_main_v7 (F := Ideal) x0 x1 (ix4 b h n j')) :=
    funext fun n => val_main_v13_at x0 x1 b h s n
  have hw : ∀ n : Fin 2048, val_main_v20 (F := Ideal) x0 x1 (ix4 b h s n)
      = Ideal.exp (Cert.Attn.scoreDivided (fun j' : Fin 64 => val_main_v5 (F := Ideal) x0 x1 (ix4 b h s j'))
            (fun (n : Fin 2048) (j' : Fin 64) => val_main_v7 (F := Ideal) x0 x1 (ix4 b h n j')) n
          - max Cert.Attn.wNegInf (Cert.Attn.rowMax (Cert.Attn.scoreDivided
              (fun j' : Fin 64 => val_main_v5 (F := Ideal) x0 x1 (ix4 b h s j'))
              (fun (n : Fin 2048) (j' : Fin 64) => val_main_v7 (F := Ideal) x0 x1 (ix4 b h n j'))))) := by
    intro n
    rw [val_main_v20_at, hs, val_main_v13_at]
  refine Finset.sum_congr rfl fun k _ => ?_
  rw [lidx25, ridx25, val_main_v24_at, hw k]
  refine congrArg (fun t => Ideal.div _ (Cert.Attn.wZero + t) * _) (Finset.sum_congr rfl fun n' _ => ?_)
  exact hw n'

/-! ## The projections and the merge of the heads -/

theorem lidx0 (b : Fin 2) (s : Fin 2048) (e : Fin 3072) (k : Fin 1024) :
    lidx_main_v0 (ix3 b s e) k = ix3 b s k :=
  funext fun a => Fin.ext (by match a with | ⟨0, _⟩ => rfl | ⟨1, _⟩ => rfl | ⟨2, _⟩ => rfl)

theorem ridx0 (b : Fin 2) (s : Fin 2048) (e : Fin 3072) (k : Fin 1024) :
    ridx_main_v0 (ix3 b s e) k = ix2 k e :=
  funext fun a => Fin.ext (by match a with | ⟨0, _⟩ => rfl | ⟨1, _⟩ => rfl)

theorem lidx28 (b : Fin 2) (s : Fin 2048) (e : Fin 1024) (k : Fin 1024) :
    lidx_main_v28 (ix3 b s e) k = ix3 b s k :=
  funext fun a => Fin.ext (by match a with | ⟨0, _⟩ => rfl | ⟨1, _⟩ => rfl | ⟨2, _⟩ => rfl)

theorem ridx28 (b : Fin 2) (s : Fin 2048) (e : Fin 1024) (k : Fin 1024) :
    ridx_main_v28 (ix3 b s e) k = ix2 k e :=
  funext fun a => Fin.ext (by match a with | ⟨0, _⟩ => rfl | ⟨1, _⟩ => rfl)

/-- The fused projection: entry (b, s, e) is the inner product of input row (b, s) with column e of the weights. -/
theorem val_main_v0_at (x0 : X0) (x1 : X1) (b : Fin 2) (s : Fin 2048) (e : Fin 3072) :
    val_main_v0 (F := Ideal) x0 x1 (ix3 b s e) = ∑ d : Fin 1024, x0 (ix3 b s d) * x1 (ix2 d e) := by
  rw [val_main_v0_apply]
  refine Finset.sum_congr rfl fun k _ => ?_
  rw [lidx0, ridx0]

/-- The output projection: entry (b, s, e) is the inner product of merged row (b, s) with column e of the weights. -/
theorem val_main_v28_at (x0 : X0) (x1 : X1) (x2 : X2) (b : Fin 2) (s : Fin 2048) (e : Fin 1024) :
    val_main_v28 (F := Ideal) x0 x1 x2 (ix3 b s e)
      = ∑ d : Fin 1024, val_main_v27 (F := Ideal) x0 x1 (ix3 b s d) * x2 (ix2 d e) := by
  rw [val_main_v28_apply]
  refine Finset.sum_congr rfl fun k _ => ?_
  rw [lidx28, ridx28]

/-- Column d = hh·64 + j of merged row (b, s) sits at (b, hh, s, j) before the heads are merged. -/
theorem idx26_27 (b : Fin 2) (s : Fin 2048) (hh : Fin 16) (j : Fin 64) (d : Fin 1024) (hd : d.val = hh.val * 64 + j.val) :
    idx_main_v26 (idx_main_v27 (ix3 b s d)) = ix4 b hh s j := by
  have hb : b.val < 2 := b.isLt
  have hs : s.val < 2048 := s.isLt
  have hh' : hh.val < 16 := hh.isLt
  have hj : j.val < 64 := j.isLt
  refine funext fun a => Fin.ext ?_
  match a with
  | ⟨0, _⟩ => show ((b.val * 2048 + s.val) * 1024 + d.val) / 2097152 = b.val; omega
  | ⟨1, _⟩ => show ((b.val * 2048 + s.val) * 1024 + d.val) / 64 % 16 = hh.val; omega
  | ⟨2, _⟩ => show ((b.val * 2048 + s.val) * 1024 + d.val) / 1024 % 2048 = s.val; omega
  | ⟨3, _⟩ => show ((b.val * 2048 + s.val) * 1024 + d.val) % 64 = j.val; omega

/-- merging the heads back: column d = hh·64 + j of row (b,s) is entry (b,hh,s,j) -/
theorem val_main_v27_at (x0 : X0) (x1 : X1) (b : Fin 2) (s : Fin 2048) (hh : Fin 16) (j : Fin 64) (d : Fin 1024)
    (hd : d.val = hh.val * 64 + j.val) :
    val_main_v27 (F := Ideal) x0 x1 (ix3 b s d) = val_main_v25 (F := Ideal) x0 x1 (ix4 b hh s j) := by
  rw [val_main_v27_apply, val_main_v26_apply, idx26_27 b s hh j d hd]

end Cert.RefAttn

end
-- ==== Proof.LibMergeRows.lean ====
/-
  Merging the two leading axes of a rank-3 array into one, and splitting them again, read at an index.

  A row-major re-layout keeps every element's position. Position of `(b, n, j)` in `[A, B, K]` is
  `(b · B + n) · K + j`; position of `(r, j)` in `[R, K]` is `r · K + j`. So with `r = b · B + n` the cast of an
  `[A, B, K]` array to `[R, K]` reads at `(r, j)` the operand at `(b, n, j)`, and the cast back reads at `(b, n, j)`
  the operand at `(r, j)`.
-/
import Idealize.ShloMosaic.Lib.Pipeline.Value
import Idealize.ShloMosaic.Lib.ValueIdx

namespace Cert.Lib.MergeRows

open Idealize.ShloMosaic Idealize.ShloMosaic.ValueIdx

variable {α : Type}

/-- `[A, B, K]` cast to `[R, K]`: entry `(r, j)` with `r = b · B + n` is the operand's entry `(b, n, j)`. -/
theorem merge_apply {A B K R : ℕ} (x : (⟨3, ![A, B, K]⟩ : Shape).Idx → α)
    (h : (⟨3, ![A, B, K]⟩ : Shape).ShapeCasts ⟨2, ![R, K]⟩) (b : Fin A) (n : Fin B) (j : Fin K) (r : Fin R)
    (hr : r.val = b.val * B + n.val) : shapeCast ⟨2, ![R, K]⟩ x h (ix2 r j) = x (ix3 b n j) :=
  shapeCast_apply x h _ _ (by
    rw [Shape.rowMajor_val_three, Shape.rowMajor_val_two]
    show (b.val * B + n.val) * K + j.val = r.val * K + j.val
    rw [hr])

/-- `[R, K]` cast to `[A, B, K]`: entry `(b, n, j)` is the operand's entry `(r, j)` with `r = b · B + n`. -/
theorem split_apply {A B K R : ℕ} (x : (⟨2, ![R, K]⟩ : Shape).Idx → α)
    (h : (⟨2, ![R, K]⟩ : Shape).ShapeCasts ⟨3, ![A, B, K]⟩) (b : Fin A) (n : Fin B) (j : Fin K) (r : Fin R)
    (hr : r.val = b.val * B + n.val) : shapeCast ⟨3, ![A, B, K]⟩ x h (ix3 b n j) = x (ix2 r j) :=
  shapeCast_apply x h _ _ (by
    rw [Shape.rowMajor_val_three, Shape.rowMajor_val_two]
    show r.val * K + j.val = (b.val * B + n.val) * K + j.val
    rw [hr])

end Cert.Lib.MergeRows
-- ==== Proof.BridgeEnds.lean ====
/-
  The two ends of the bridge between the idealized kernel program and the reference: the input projection before the
  attention core and the output projection after it, each under a hypothesis on what a kernel region leaves in its
  output array.
-/
import proofs.«135831_j22239340659491_2_alg».proof.Proof.HostGlue
import proofs.«135831_j22239340659491_2_alg».proof.Proof.RefAttn
import proofs.«135831_j22239340659491_2_alg».proof.Proof.LibMergeRows
import Idealize.ShloMosaic.Lib.Pipeline.Value
import Idealize.ShloMosaic.Lib.ValueIdx

set_option maxRecDepth 16384

noncomputable section

open scoped BigOperators

namespace Cert.BridgeEnds

open Idealize.ShloMosaic Idealize.ShloMosaic.TcCoe Idealize.ShloMosaic.ValueIdx Idealize.SL.Sem
open Cert.KernelIdeal Cert.KernelIdeal.Gen Cert.KernelIdeal.HostGlue

variable (m : (ℓ : Loc nD τ sig) → Buf (Elt Ideal) ℓ) (ρ : Dev nD → PrngReg) (c : Dev nD)

/-- The kernel program's first argument buffer, read as the reference's input array. -/
abbrev x0 : Cert.RefAttn.X0 := m ((c : Thread nD τ).loc main_arg0)
/-- The kernel program's second argument buffer, read as the reference's fused projection weights. -/
abbrev x1 : Cert.RefAttn.X1 := m ((c : Thread nD τ).loc main_arg1)
/-- The kernel program's third argument buffer, read as the reference's output projection weights. -/
abbrev x2 : Cert.RefAttn.X2 := m ((c : Thread nD τ).loc main_arg2)

/-- The rows the first region reads: the input with (batch, position) merged, [4096, 1024]. -/
abbrev rows0 : (⟨S4096x1024, .bf16⟩ : BufTy).Contents (Elt Ideal) := V1 m ρ c main_v3
/-- The weights the first region reads, [1024, 3072]. -/
abbrev weights0 : (⟨S1024x3072, .bf16⟩ : BufTy).Contents (Elt Ideal) := V1 m ρ c main_v1
/-- The rows the third region reads: the merged attention result, [4096, 1024]. -/
abbrev rows2 : (⟨S4096x1024, .bf16⟩ : BufTy).Contents (Elt Ideal) := V5 m ρ c main_v21
/-- The weights the third region reads, [1024, 1024]. -/
abbrev weights2 : (⟨S1024x1024, .bf16⟩ : BufTy).Contents (Elt Ideal) := V5 m ρ c main_v2

/-- the projection: if the first region leaves rows-times-weights in its output array, the kernel's [2,2048,3072]
    projection is the reference's -/
theorem qkv3_eq (h0 : ∀ (r : Fin 4096) (e : Fin 3072), arrQkv m ρ c (ix2 r e) = ∑ d : Fin 1024, rows0 m ρ c (ix2 r d) * weights0 m ρ c (ix2 d e)) :
    qkv3 m ρ c = Cert.ReferenceIdeal.Read.val_main_v0 (F := Ideal) (x0 m c) (x1 m c) := by
  funext i
  obtain ⟨b, s, e, rfl⟩ : ∃ (b : Fin 2) (s : Fin 2048) (e : Fin 3072), i = ix3 b s e := ⟨i 0, i 1, i 2, eq_ix3 i⟩
  obtain ⟨r, hr⟩ : ∃ r : Fin 4096, r.val = b.val * 2048 + s.val :=
    ⟨⟨b.val * 2048 + s.val, by have := b.isLt; have := s.isLt; omega⟩, rfl⟩
  unfold qkv3
  refine (Cert.Lib.MergeRows.split_apply (A := 2) (B := 2048) (K := 3072) (R := 4096) (arrQkv m ρ c)
    shapeCasts_S4096x3072_S2x2048x3072 b s e r hr).trans ?_
  refine (h0 r e).trans ?_
  refine Eq.trans ?_ (Cert.RefAttn.val_main_v0_at (x0 m c) (x1 m c) b s e).symm
  refine Finset.sum_congr rfl fun d _ => ?_
  have e1 : rows0 m ρ c (ix2 r d) = x0 m c (ix3 b s d) :=
    (congrFun (entry0_activations m ρ c) (ix2 r d)).trans
      (Cert.Lib.MergeRows.merge_apply (A := 2) (B := 2048) (K := 1024) (R := 4096) _
        shapeCasts_S2x2048x1024_S4096x1024 b s d r hr)
  have e2 : weights0 m ρ c (ix2 d e) = x1 m c (ix2 d e) := congrFun (entry0_weights m ρ c) (ix2 d e)
  rw [e1, e2]

/-- hence the three per-head arrays agree as whole arrays: the two programs apply the same slice / split / swap to the
    same array; here the queries -/
theorem queries_eq (h0 : ∀ (r : Fin 4096) (e : Fin 3072), arrQkv m ρ c (ix2 r e) = ∑ d : Fin 1024, rows0 m ρ c (ix2 r d) * weights0 m ρ c (ix2 d e)) :
    headsOf ![0, 0, 0] slices_S2x2048x3072_S2x2048x1024_0_0_0 (qkv3 m ρ c) = Cert.ReferenceIdeal.Read.val_main_v5 (F := Ideal) (x0 m c) (x1 m c) := by
  refine (congrArg (headsOf ![0, 0, 0] slices_S2x2048x3072_S2x2048x1024_0_0_0) (qkv3_eq m ρ c h0)).trans ?_
  rfl

/-- the keys, likewise -/
theorem keys_eq (h0 : ∀ (r : Fin 4096) (e : Fin 3072), arrQkv m ρ c (ix2 r e) = ∑ d : Fin 1024, rows0 m ρ c (ix2 r d) * weights0 m ρ c (ix2 d e)) :
    headsOf ![0, 0, 1024] slices_S2x2048x3072_S2x2048x1024_0_0_1024 (qkv3 m ρ c) = Cert.ReferenceIdeal.Read.val_main_v7 (F := Ideal) (x0 m c) (x1 m c) := by
  refine (congrArg (headsOf ![0, 0, 1024] slices_S2x2048x3072_S2x2048x1024_0_0_1024) (qkv3_eq m ρ c h0)).trans ?_
  rfl

/-- the values, likewise -/
theorem values_eq (h0 : ∀ (r : Fin 4096) (e : Fin 3072), arrQkv m ρ c (ix2 r e) = ∑ d : Fin 1024, rows0 m ρ c (ix2 r d) * weights0 m ρ c (ix2 d e)) :
    headsOf ![0, 0, 2048] slices_S2x2048x3072_S2x2048x1024_0_0_2048 (qkv3 m ρ c) = Cert.ReferenceIdeal.Read.val_main_v9 (F := Ideal) (x0 m c) (x1 m c) := by
  refine (congrArg (headsOf ![0, 0, 2048] slices_S2x2048x3072_S2x2048x1024_0_0_2048) (qkv3_eq m ρ c h0)).trans ?_
  rfl

/-- the output projection: if the third region leaves rows-times-weights, and the merged attention rows it reads are the
    reference's merged heads, the result buffer holds the reference's result -/
theorem result_eq (h2 : ∀ (r : Fin 4096) (e : Fin 1024), arrOut m ρ c (ix2 r e) = ∑ d : Fin 1024, rows2 m ρ c (ix2 r d) * weights2 m ρ c (ix2 d e))
    (hA : ∀ (b : Fin 2) (s : Fin 2048) (r : Fin 4096) (d : Fin 1024), r.val = b.val * 2048 + s.val → mergedAttn m ρ c (ix2 r d) = Cert.ReferenceIdeal.Read.val_main_v27 (F := Ideal) (x0 m c) (x1 m c) (ix3 b s d)) :
    W7 m ρ c (Proc.devRef .tc main_v23) = Cert.ReferenceIdeal.Read.val_main_v28 (F := Ideal) (x0 m c) (x1 m c) (x2 m c) := by
  refine (result m ρ c).trans ?_
  funext i
  obtain ⟨b, s, e, rfl⟩ : ∃ (b : Fin 2) (s : Fin 2048) (e : Fin 1024), i = ix3 b s e := ⟨i 0, i 1, i 2, eq_ix3 i⟩
  obtain ⟨r, hr⟩ : ∃ r : Fin 4096, r.val = b.val * 2048 + s.val :=
    ⟨⟨b.val * 2048 + s.val, by have := b.isLt; have := s.isLt; omega⟩, rfl⟩
  refine (Cert.Lib.MergeRows.split_apply (A := 2) (B := 2048) (K := 1024) (R := 4096) (arrOut m ρ c)
    shapeCasts_S4096x1024_S2x2048x1024 b s e r hr).trans ?_
  refine (h2 r e).trans ?_
  refine Eq.trans ?_ (Cert.RefAttn.val_main_v28_at (x0 m c) (x1 m c) (x2 m c) b s e).symm
  refine Finset.sum_congr rfl fun d _ => ?_
  have e1 : rows2 m ρ c (ix2 r d) = Cert.ReferenceIdeal.Read.val_main_v27 (F := Ideal) (x0 m c) (x1 m c) (ix3 b s d) :=
    (congrFun (entry2_activations m ρ c) (ix2 r d)).trans (hA b s r d hr)
  have e2 : weights2 m ρ c (ix2 d e) = x2 m c (ix2 d e) := congrFun (entry2_weights m ρ c) (ix2 d e)
  rw [e1, e2]

end Cert.BridgeEnds

end
-- ==== Proof.AttnAlgebra.lean ====
/-
  The algebra of single-pass softmax attention for one query row over the extended reals:
  what the five float words denote, and the law that the two arrangements of the computation
  (normalise last with a scaled query; normalise first with divided inner products) agree on real entries.
-/
import proofs.«135831_j22239340659491_2_alg».proof.Proof.AttnSpec

noncomputable section

open scoped BigOperators

namespace Cert.Attn

open Idealize.ShloMosaic

/-! ### What the float words denote -/

/-- The bf16 word `0x3E00` denotes `1/8`. -/
theorem wEighth_eq : wEighth = ((1 / 8 : ℝ) : EReal) := by
  simp [wEighth, Ideal.ofBits, Ideal.ieee, -EReal.coe_mul]; norm_num

/-- The f32 word `0x42800000` denotes `64`. -/
theorem wSixtyFour_eq : wSixtyFour = ((64 : ℝ) : EReal) := by
  simp [wSixtyFour, Ideal.ofBits, Ideal.ieee, -EReal.coe_mul]; norm_num

/-- The f32 word `0xFF800000` denotes `-∞`. -/
theorem wNegInf_eq : wNegInf = ⊥ := by
  simp [wNegInf, Ideal.ofBits, Ideal.ieee]

/-- The f32 word `0x00000000` denotes `0`. -/
theorem wZero_eq : wZero = 0 := by
  simp [wZero, Ideal.ofBits, Ideal.ieee]

/-- The f32 word `0x3F800000` denotes `1`. -/
theorem wOne_eq : wOne = ((1 : ℝ) : EReal) := by
  simp [wOne, Ideal.ofBits, Ideal.ieee, -EReal.coe_mul]; norm_num

/-- The square root of the word of `64` is `8`. -/
theorem sqrt_wSixtyFour : Ideal.sqrt wSixtyFour = ((8 : ℝ) : EReal) := by
  rw [wSixtyFour_eq, Ideal.sqrt_coe, if_neg (by norm_num)]
  have h : (64 : ℝ) = 8 * 8 := by norm_num
  rw [h, Real.sqrt_mul_self (by norm_num)]

/-! ### Coercions and finite sums -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of coerced reals is the coercion of the real sum of products. -/
theorem sum_coe_mul_coe {ι : Type*} (s : Finset ι) (f g : ι → ℝ) :
    (∑ i ∈ s, (f i : EReal) * (g i : EReal)) = ((∑ i ∈ s, f i * g i : ℝ) : EReal) := by
  rw [coe_finset_sum]
  exact Finset.sum_congr rfl fun i _ => (EReal.coe_mul _ _).symm

/-- an inner product of real entries is real -/
theorem exists_real_sum_mul {K : ℕ} (x y : Fin K → EReal) (hx : ∀ d, ∃ r : ℝ, x d = (r : EReal))
    (hy : ∀ d, ∃ r : ℝ, y d = (r : EReal)) : ∃ r : ℝ, (∑ d : Fin K, x d * y d) = (r : EReal) := by
  choose xr hxr using hx
  choose yr hyr using hy
  refine ⟨∑ d, xr d * yr d, ?_⟩
  rw [← sum_coe_mul_coe]
  exact Finset.sum_congr rfl fun d _ => by rw [hxr, hyr]

/-! ### The scores -/

/-- With real entries, scaling the query by `1/8` first gives the real inner product over `8`. -/
theorem scoreScaledQuery_coe (qr : Fin 64 → ℝ) (kr : Fin 2048 → Fin 64 → ℝ) (n : Fin 2048) :
    scoreScaledQuery (fun j => (qr j : EReal)) (fun n j => (kr n j : EReal)) n
      = (((∑ j, qr j * kr n j) / 8 : ℝ) : EReal) := by
  unfold scoreScaledQuery
  rw [wEighth_eq, Finset.sum_div, coe_finset_sum]
  refine Finset.sum_congr rfl fun j _ => ?_
  rw [← EReal.coe_mul, ← EReal.coe_mul]
  congr 1; ring

/-- With real entries, dividing the inner product by `√64` gives the real inner product over `8`. -/
theorem scoreDivided_coe (qr : Fin 64 → ℝ) (kr : Fin 2048 → Fin 64 → ℝ) (n : Fin 2048) :
    scoreDivided (fun j => (qr j : EReal)) (fun n j => (kr n j : EReal)) n
      = (((∑ j, qr j * kr n j) / 8 : ℝ) : EReal) := by
  unfold scoreDivided
  rw [sqrt_wSixtyFour, Ideal.div_coe (by norm_num : (8 : ℝ) ≠ 0), sum_coe_mul_coe, ← EReal.coe_mul]
  congr 1; ring

/-! ### The maximum of a real row is real -/

theorem exists_real_rowMax (s : Fin 2048 → ℝ) : ∃ m : ℝ, rowMax (fun n => (s n : EReal)) = (m : EReal) := by
  have hbot : rowMax (fun n => (s n : EReal)) ≠ ⊥ := by
    have h : ((s 0 : ℝ) : EReal) ≤ rowMax (fun n => (s n : EReal)) := by
      unfold rowMax
      exact (Finset.le_fold_max _).mpr (Or.inr ⟨0, Finset.mem_univ _, le_rfl⟩)
    intro hh
    rw [hh] at h
    exact absurd h (by simp)
  have htop : rowMax (fun n => (s n : EReal)) ≠ ⊤ := by
    have h : rowMax (fun n => (s n : EReal)) < ⊤ := by
      unfold rowMax
      rw [Finset.fold_max_lt]
      refine ⟨?_, fun n _ => EReal.coe_lt_top _⟩
      rw [wNegInf_eq]
      exact bot_lt_top
    exact h.ne
  exact ⟨_, (EReal.coe_toReal htop hbot).symm⟩

/-! ### Positive real weights -/

/-- With positive real weights `w` and real values `v`, normalising after the weighted sum is the real
    `(∑ wₙ vₙ) / ∑ wₙ`. -/
theorem normalizeLast_coe (w v : Fin 2048 → ℝ) (hw : ∀ n, 0 < w n) :
    (∑ n, (w n : EReal) * (v n : EReal)) * Ideal.div wOne (∑ n, (w n : EReal))
      = (((∑ n, w n * v n) / ∑ n, w n : ℝ) : EReal) := by
  have hL : (∑ n, w n) ≠ 0 := (Finset.sum_pos (fun n _ => hw n) Finset.univ_nonempty).ne'
  rw [wOne_eq, ← coe_finset_sum, Ideal.div_coe hL, sum_coe_mul_coe, ← EReal.coe_mul, ← EReal.coe_mul]
  congr 1; ring

/-- With positive real weights `w` and real values `v`, normalising each weight before the weighted sum is the
    same real `(∑ wₙ vₙ) / ∑ wₙ`. -/
theorem normalizeFirst_coe (w v : Fin 2048 → ℝ) (hw : ∀ n, 0 < w n) :
    (∑ n, Ideal.div (w n : EReal) (wZero + ∑ n', (w n' : EReal)) * (v n : EReal))
      = (((∑ n, w n * v n) / ∑ n, w n : ℝ) : EReal) := by
  have hL : (∑ n, w n) ≠ 0 := (Finset.sum_pos (fun n _ => hw n) Finset.univ_nonempty).ne'
  rw [wZero_eq, zero_add, ← coe_finset_sum]
  have h : ∀ n, Ideal.div (w n : EReal) ((∑ n', w n' : ℝ) : EReal) * (v n : EReal)
      = ((w n * (1 / ∑ n', w n') * v n : ℝ) : EReal) := by
    intro n
    rw [Ideal.div_coe hL, ← EReal.coe_mul, ← EReal.coe_mul]
  rw [Finset.sum_congr rfl fun n _ => h n, ← coe_finset_sum]
  congr 1
  rw [Finset.sum_div]
  refine Finset.sum_congr rfl fun n _ => ?_
  ring

/-! ### The two arrangements on real entries -/

/-- On real entries both arrangements are the same real number: the weighted mean of the values with weights
    `exp (sₙ - m)`, `s` the real scores and `m` their maximum. -/
theorem exists_real_both (q : Fin 64 → EReal) (k : Fin 2048 → Fin 64 → EReal) (v : Fin 2048 → EReal)
    (hq : ∀ j, ∃ r : ℝ, q j = (r : EReal)) (hk : ∀ n j, ∃ r : ℝ, k n j = (r : EReal))
    (hv : ∀ n, ∃ r : ℝ, v n = (r : EReal)) :
    ∃ r : ℝ, attnNormalizeLast q k v = (r : EReal) ∧ attnNormalizeFirst q k v = (r : EReal) := by
  choose qr hqr using hq
  choose kr hkr using hk
  choose vr hvr using hv
  obtain rfl : q = fun j => (qr j : EReal) := funext hqr
  obtain rfl : k = fun n j => (kr n j : EReal) := by funext n j; exact hkr n j
  obtain rfl : v = fun n => (vr n : EReal) := funext hvr
  have hs1 : scoreScaledQuery (fun j => (qr j : EReal)) (fun n j => (kr n j : EReal))
      = fun n => (((∑ j, qr j * kr n j) / 8 : ℝ) : EReal) := funext fun n => scoreScaledQuery_coe qr kr n
  have hs2 : scoreDivided (fun j => (qr j : EReal)) (fun n j => (kr n j : EReal))
      = fun n => (((∑ j, qr j * kr n j) / 8 : ℝ) : EReal) := funext fun n => scoreDivided_coe qr kr n
  obtain ⟨m, hm⟩ := exists_real_rowMax fun n => (∑ j, qr j * kr n j) / 8
  refine ⟨(∑ n, Real.exp ((∑ j, qr j * kr n j) / 8 - m) * vr n) / ∑ n, Real.exp ((∑ j, qr j * kr n j) / 8 - m),
    ?_, ?_⟩
  · unfold attnNormalizeLast
    rw [hs1, hm]
    simp only [← EReal.coe_sub, Ideal.exp_coe]
    exact normalizeLast_coe (fun n => Real.exp ((∑ j, qr j * kr n j) / 8 - m)) vr fun n => Real.exp_pos _
  · unfold attnNormalizeFirst
    rw [hs2, hm, wNegInf_eq, max_eq_right bot_le]
    simp only [← EReal.coe_sub, Ideal.exp_coe]
    exact normalizeFirst_coe (fun n => Real.exp ((∑ j, qr j * kr n j) / 8 - m)) vr fun n => Real.exp_pos _

/-- THE LAW: on real entries the two arrangements of single-pass softmax attention agree -/
theorem attnNormalizeLast_eq_attnNormalizeFirst (q : Fin 64 → EReal) (k : Fin 2048 → Fin 64 → EReal)
    (v : Fin 2048 → EReal) (hq : ∀ j, ∃ r : ℝ, q j = (r : EReal)) (hk : ∀ n j, ∃ r : ℝ, k n j = (r : EReal))
    (hv : ∀ n, ∃ r : ℝ, v n = (r : EReal)) :
    attnNormalizeLast q k v = attnNormalizeFirst q k v := by
  obtain ⟨r, h1, h2⟩ := exists_real_both q k v hq hk hv
  rw [h1, h2]

/-- On real entries the result is a real number. -/
theorem exists_real_attnNormalizeFirst (q : Fin 64 → EReal) (k : Fin 2048 → Fin 64 → EReal)
    (v : Fin 2048 → EReal) (hq : ∀ j, ∃ r : ℝ, q j = (r : EReal)) (hk : ∀ n j, ∃ r : ℝ, k n j = (r : EReal))
    (hv : ∀ n, ∃ r : ℝ, v n = (r : EReal)) :
    ∃ r : ℝ, attnNormalizeFirst q k v = (r : EReal) := by
  obtain ⟨r, _, h2⟩ := exists_real_both q k v hq hk hv
  exact ⟨r, h2⟩

end Cert.Attn

end
-- ==== Proof.LibHeadAxes.lean ====
/-
  Four-axis re-layouts read at an index given by coordinates: the reshapes and the axis swap that split a row of
  features into heads and merge them back.

  A row-major re-layout keeps every element's position. The position of (a, b, c, d) in [A, B, C, D] is
  ((a · B + b) · C + c) · D + d. So with g = a · B + b the cast to [G, C, D] reads at (g, c, d) the operand at
  (a, b, c, d), and the cast back reads at (a, b, c, d) the operand at (g, c, d); with r = a · B + b and
  k = c · D + d the cast to the matrix [R, K] reads at (r, k) the operand at (a, b, c, d). The transpose that swaps
  the two middle axes reads, at (i, k, j, l), the operand at (i, j, k, l).
-/
import Idealize.ShloMosaic.Lib.Pipeline.Value
import Idealize.ShloMosaic.Lib.ValueIdx

namespace Cert.Lib.HeadAxes

open Idealize.ShloMosaic Idealize.ShloMosaic.ValueIdx

variable {α : Type}

/-- [A, B, C, D] cast to [G, C, D]: entry (g, c, d) with g = a · B + b is the operand's entry (a, b, c, d). -/
theorem merge_lead_apply {A B C D G : ℕ} (x : (⟨4, ![A, B, C, D]⟩ : Shape).Idx → α)
    (h : (⟨4, ![A, B, C, D]⟩ : Shape).ShapeCasts ⟨3, ![G, C, D]⟩) (a : Fin A) (b : Fin B) (c : Fin C) (d : Fin D) (g : Fin G)
    (hg : g.val = a.val * B + b.val) : shapeCast ⟨3, ![G, C, D]⟩ x h (ix3 g c d) = x (ix4 a b c d) :=
  shapeCast_apply x h _ _ (by
    rw [Shape.rowMajor_val_four, Shape.rowMajor_val_three]
    show ((a.val * B + b.val) * C + c.val) * D + d.val = (g.val * C + c.val) * D + d.val
    rw [hg])

/-- [G, C, D] cast to [A, B, C, D]: entry (a, b, c, d) is the operand's entry (g, c, d) with g = a · B + b. -/
theorem split_lead_apply {A B C D G : ℕ} (x : (⟨3, ![G, C, D]⟩ : Shape).Idx → α)
    (h : (⟨3, ![G, C, D]⟩ : Shape).ShapeCasts ⟨4, ![A, B, C, D]⟩) (a : Fin A) (b : Fin B) (c : Fin C) (d : Fin D) (g : Fin G)
    (hg : g.val = a.val * B + b.val) : shapeCast ⟨4, ![A, B, C, D]⟩ x h (ix4 a b c d) = x (ix3 g c d) :=
  shapeCast_apply x h _ _ (by
    rw [Shape.rowMajor_val_three, Shape.rowMajor_val_four]
    show (g.val * C + c.val) * D + d.val = ((a.val * B + b.val) * C + c.val) * D + d.val
    rw [hg])

/-- [A, B, C, D] cast to the matrix [R, K]: entry (r, k) with r = a · B + b and k = c · D + d is the operand's
    entry (a, b, c, d). -/
theorem merge_pairs_apply {A B C D R K : ℕ} (x : (⟨4, ![A, B, C, D]⟩ : Shape).Idx → α)
    (h : (⟨4, ![A, B, C, D]⟩ : Shape).ShapeCasts ⟨2, ![R, K]⟩) (a : Fin A) (b : Fin B) (c : Fin C) (d : Fin D) (r : Fin R) (k : Fin K)
    (hr : r.val = a.val * B + b.val) (hk : k.val = c.val * D + d.val) (hK : K = C * D) :
    shapeCast ⟨2, ![R, K]⟩ x h (ix2 r k) = x (ix4 a b c d) :=
  shapeCast_apply x h _ _ (by
    rw [Shape.rowMajor_val_four, Shape.rowMajor_val_two]
    show ((a.val * B + b.val) * C + c.val) * D + d.val = r.val * K + k.val
    rw [hr, hk, hK, Nat.add_mul, Nat.mul_assoc, Nat.add_assoc])

/-- The transpose swapping the two middle axes reads, at (i, k, j, l), the operand at (i, j, k, l). -/
theorem transpose_0213_apply {a b c d : ℕ} (x : (⟨4, ![a, b, c, d]⟩ : Shape).Idx → α)
    (h : (⟨4, ![a, b, c, d]⟩ : Shape).Transposes [0, 2, 1, 3] ⟨4, ![a, c, b, d]⟩) (i : Fin a) (k : Fin c) (j : Fin b) (l : Fin d) :
    transpose ⟨4, ![a, c, b, d]⟩ [0, 2, 1, 3] x h (ix4 i k j l) = x (ix4 i j k l) :=
  transpose_apply _ x h _ _ fun ax => match ax with | ⟨0, _⟩ => rfl | ⟨1, _⟩ => rfl | ⟨2, _⟩ => rfl | ⟨3, _⟩ => rfl

end Cert.Lib.HeadAxes
-- ==== Proof.BridgeCore.lean ====
/-
  The core of the bridge between the idealized kernel program and the reference: the attention's result with the
  heads merged back into 1024 columns is the reference's merged heads.

  The kernel program keeps batch and head merged in one leading axis g = b · 16 + hh of a [32, 2048, 64] array; the
  reference keeps them apart in a [2, 16, 2048, 64] array. Column d = hh · 64 + j of merged row r = b · 2048 + s is, on
  either side, entry (b, hh, s, j) of the per-head result. There the kernel program holds single-row softmax attention
  in the normalise-last arrangement and the reference holds it in the normalise-first arrangement, of the same query
  row, keys and value column; the two agree because every entry of the projection is an inner product of real
  entries, hence real.
-/
import proofs.«135831_j22239340659491_2_alg».proof.Proof.HostGlue
import proofs.«135831_j22239340659491_2_alg».proof.Proof.RefAttn
import proofs.«135831_j22239340659491_2_alg».proof.Proof.AttnAlgebra
import proofs.«135831_j22239340659491_2_alg».proof.Proof.LibHeadAxes
import Idealize.ShloMosaic.Lib.Pipeline.Value
import Idealize.ShloMosaic.Lib.ValueIdx

set_option maxRecDepth 16384

noncomputable section

open scoped BigOperators

namespace Cert.BridgeCore

open Idealize.ShloMosaic Idealize.ShloMosaic.TcCoe Idealize.ShloMosaic.ValueIdx Idealize.SL.Sem
open Cert.KernelIdeal Cert.KernelIdeal.Gen Cert.KernelIdeal.HostGlue

/-! ## Every entry of the reference's projection, and of its per-head re-layouts, is real -/

/-- every entry of the reference's projection is real when the inputs are -/
theorem real_v0 (x0 : Cert.RefAttn.X0) (x1 : Cert.RefAttn.X1) (hx0 : ∀ i, ∃ r : ℝ, x0 i = (r : EReal))
    (hx1 : ∀ i, ∃ r : ℝ, x1 i = (r : EReal)) :
    ∀ i, ∃ r : ℝ, Cert.ReferenceIdeal.Read.val_main_v0 (F := Ideal) x0 x1 i = (r : EReal) := by
  intro i
  obtain ⟨b, s, e, rfl⟩ : ∃ (b : Fin 2) (s : Fin 2048) (e : Fin 3072), i = ix3 b s e := ⟨i 0, i 1, i 2, eq_ix3 i⟩
  rw [Cert.RefAttn.val_main_v0_at]
  exact Cert.Attn.exists_real_sum_mul _ _ (fun d => hx0 _) (fun d => hx1 _)

/-- hence every entry of the per-head queries (a re-layout of the projection's first band) -/
theorem real_v5 (x0 : Cert.RefAttn.X0) (x1 : Cert.RefAttn.X1) (hx0 : ∀ i, ∃ r : ℝ, x0 i = (r : EReal))
    (hx1 : ∀ i, ∃ r : ℝ, x1 i = (r : EReal)) :
    ∀ i, ∃ r : ℝ, Cert.ReferenceIdeal.Read.val_main_v5 (F := Ideal) x0 x1 i = (r : EReal) := by
  intro i
  rw [Cert.ReferenceIdeal.Read.val_main_v5_apply, Cert.ReferenceIdeal.Read.val_main_v4_apply,
    Cert.ReferenceIdeal.Read.val_main_v1_apply]
  exact real_v0 x0 x1 hx0 hx1 _

/-- and of the per-head keys (the second band) -/
theorem real_v7 (x0 : Cert.RefAttn.X0) (x1 : Cert.RefAttn.X1) (hx0 : ∀ i, ∃ r : ℝ, x0 i = (r : EReal))
    (hx1 : ∀ i, ∃ r : ℝ, x1 i = (r : EReal)) :
    ∀ i, ∃ r : ℝ, Cert.ReferenceIdeal.Read.val_main_v7 (F := Ideal) x0 x1 i = (r : EReal) := by
  intro i
  rw [Cert.ReferenceIdeal.Read.val_main_v7_apply, Cert.ReferenceIdeal.Read.val_main_v6_apply,
    Cert.ReferenceIdeal.Read.val_main_v2_apply]
  exact real_v0 x0 x1 hx0 hx1 _

/-- and of the per-head values (the third band) -/
theorem real_v9 (x0 : Cert.RefAttn.X0) (x1 : Cert.RefAttn.X1) (hx0 : ∀ i, ∃ r : ℝ, x0 i = (r : EReal))
    (hx1 : ∀ i, ∃ r : ℝ, x1 i = (r : EReal)) :
    ∀ i, ∃ r : ℝ, Cert.ReferenceIdeal.Read.val_main_v9 (F := Ideal) x0 x1 i = (r : EReal) := by
  intro i
  rw [Cert.ReferenceIdeal.Read.val_main_v9_apply, Cert.ReferenceIdeal.Read.val_main_v8_apply,
    Cert.ReferenceIdeal.Read.val_main_v3_apply]
  exact real_v0 x0 x1 hx0 hx1 _

/-! ## What the attention region finds in its three input arrays, at the reference's coordinates -/

section Core

variable (m : (ℓ : Loc nD τ sig) → Buf (Elt Ideal) ℓ) (ρ : Dev nD → PrngReg) (c : Dev nD)
variable (x0 : Cert.RefAttn.X0) (x1 : Cert.RefAttn.X1)

/-- The queries the attention region finds, at (g, s, j) with g = b · 16 + hh, are the reference's at (b, hh, s, j). -/
theorem queries_at
    (hq : headsOf ![0, 0, 0] slices_S2x2048x3072_S2x2048x1024_0_0_0 (qkv3 m ρ c) = Cert.ReferenceIdeal.Read.val_main_v5 (F := Ideal) x0 x1)
    (b : Fin 2) (hh : Fin 16) (g : Fin 32) (hg : g.val = b.val * 16 + hh.val) (s : Fin 2048) (j : Fin 64) :
    V3 m ρ c main_v11 (ix3 g s j) = Cert.ReferenceIdeal.Read.val_main_v5 (F := Ideal) x0 x1 (ix4 b hh s j) := by
  refine (congrFun (entry1_queries m ρ c) (ix3 g s j)).trans ?_
  refine (Cert.Lib.HeadAxes.merge_lead_apply _ _ b hh s j g hg).trans ?_
  exact congrFun hq (ix4 b hh s j)

/-- The keys it finds, at (g, n, j) with g = b · 16 + hh, are the reference's at (b, hh, n, j). -/
theorem keys_at
    (hk : headsOf ![0, 0, 1024] slices_S2x2048x3072_S2x2048x1024_0_0_1024 (qkv3 m ρ c) = Cert.ReferenceIdeal.Read.val_main_v7 (F := Ideal) x0 x1)
    (b : Fin 2) (hh : Fin 16) (g : Fin 32) (hg : g.val = b.val * 16 + hh.val) (n : Fin 2048) (j : Fin 64) :
    V3 m ρ c main_v14 (ix3 g n j) = Cert.ReferenceIdeal.Read.val_main_v7 (F := Ideal) x0 x1 (ix4 b hh n j) := by
  refine (congrFun (entry1_keys m ρ c) (ix3 g n j)).trans ?_
  refine (Cert.Lib.HeadAxes.merge_lead_apply _ _ b hh n j g hg).trans ?_
  exact congrFun hk (ix4 b hh n j)

/-- The values it finds, at (g, n, j) with g = b · 16 + hh, are the reference's at (b, hh, n, j). -/
theorem values_at
    (hv : headsOf ![0, 0, 2048] slices_S2x2048x3072_S2x2048x1024_0_0_2048 (qkv3 m ρ c) = Cert.ReferenceIdeal.Read.val_main_v9 (F := Ideal) x0 x1)
    (b : Fin 2) (hh : Fin 16) (g : Fin 32) (hg : g.val = b.val * 16 + hh.val) (n : Fin 2048) (j : Fin 64) :
    V3 m ρ c main_v17 (ix3 g n j) = Cert.ReferenceIdeal.Read.val_main_v9 (F := Ideal) x0 x1 (ix4 b hh n j) := by
  refine (congrFun (entry1_values m ρ c) (ix3 g n j)).trans ?_
  refine (Cert.Lib.HeadAxes.merge_lead_apply _ _ b hh n j g hg).trans ?_
  exact congrFun hv (ix4 b hh n j)

/-! ## The core -/

/-- The kernel program's merged attention at (r, d) is the kernel's per-head result at (g, s, j), for r = b · 2048 + s,
    d = hh · 64 + j and g = b · 16 + hh: the merge of (batch, position) and (head, column), the swap of the two middle
    axes and the split of the merged leading axis, read at coordinates. -/
theorem mergedAttn_at (b : Fin 2) (s : Fin 2048) (hh : Fin 16) (j : Fin 64) (g : Fin 32) (r : Fin 4096) (d : Fin 1024)
    (hr : r.val = b.val * 2048 + s.val) (hd : d.val = hh.val * 64 + j.val) (hg : g.val = b.val * 16 + hh.val) :
    mergedAttn m ρ c (ix2 r d) = arrAttn m ρ c (ix3 g s j) := by
  unfold mergedAttn
  refine (Cert.Lib.HeadAxes.merge_pairs_apply _ _ b s hh j r d hr hd (by norm_num)).trans ?_
  refine (Cert.Lib.HeadAxes.transpose_0213_apply _ _ b s hh j).trans ?_
  exact Cert.Lib.HeadAxes.split_lead_apply _ _ b hh s j g hg

/-- THE CORE -/
theorem merged_eq (hx0 : ∀ i, ∃ r : ℝ, x0 i = (r : EReal)) (hx1 : ∀ i, ∃ r : ℝ, x1 i = (r : EReal))
    (hq : headsOf ![0, 0, 0] slices_S2x2048x3072_S2x2048x1024_0_0_0 (qkv3 m ρ c) = Cert.ReferenceIdeal.Read.val_main_v5 (F := Ideal) x0 x1)
    (hk : headsOf ![0, 0, 1024] slices_S2x2048x3072_S2x2048x1024_0_0_1024 (qkv3 m ρ c) = Cert.ReferenceIdeal.Read.val_main_v7 (F := Ideal) x0 x1)
    (hv : headsOf ![0, 0, 2048] slices_S2x2048x3072_S2x2048x1024_0_0_2048 (qkv3 m ρ c) = Cert.ReferenceIdeal.Read.val_main_v9 (F := Ideal) x0 x1)
    (h1 : ∀ (g : Fin 32) (s : Fin 2048) (j : Fin 64), arrAttn m ρ c (ix3 g s j)
        = Cert.Attn.attnNormalizeLast (fun j' : Fin 64 => V3 m ρ c main_v11 (ix3 g s j'))
            (fun (n : Fin 2048) (j' : Fin 64) => V3 m ρ c main_v14 (ix3 g n j'))
            (fun n : Fin 2048 => V3 m ρ c main_v17 (ix3 g n j))) :
    ∀ (b : Fin 2) (s : Fin 2048) (r : Fin 4096) (d : Fin 1024), r.val = b.val * 2048 + s.val →
      mergedAttn m ρ c (ix2 r d) = Cert.ReferenceIdeal.Read.val_main_v27 (F := Ideal) x0 x1 (ix3 b s d) := by
  intro b s r d hr
  have hdlt : d.val < 1024 := d.isLt
  have hblt : b.val < 2 := b.isLt
  obtain ⟨hh, hhv⟩ : ∃ hh : Fin 16, hh.val = d.val / 64 := ⟨⟨d.val / 64, by omega⟩, rfl⟩
  obtain ⟨j, hjv⟩ : ∃ j : Fin 64, j.val = d.val % 64 := ⟨⟨d.val % 64, by omega⟩, rfl⟩
  obtain ⟨g, hg⟩ : ∃ g : Fin 32, g.val = b.val * 16 + hh.val := ⟨⟨b.val * 16 + hh.val, by omega⟩, rfl⟩
  have hd : d.val = hh.val * 64 + j.val := by omega
  refine (mergedAttn_at m ρ c b s hh j g r d hr hd hg).trans ?_
  refine (h1 g s j).trans ?_
  have eq : (fun j' : Fin 64 => V3 m ρ c main_v11 (ix3 g s j'))
      = fun j' : Fin 64 => Cert.ReferenceIdeal.Read.val_main_v5 (F := Ideal) x0 x1 (ix4 b hh s j') :=
    funext fun j' => queries_at m ρ c x0 x1 hq b hh g hg s j'
  have ek : (fun (n : Fin 2048) (j' : Fin 64) => V3 m ρ c main_v14 (ix3 g n j'))
      = fun (n : Fin 2048) (j' : Fin 64) => Cert.ReferenceIdeal.Read.val_main_v7 (F := Ideal) x0 x1 (ix4 b hh n j') :=
    funext fun n => funext fun j' => keys_at m ρ c x0 x1 hk b hh g hg n j'
  have ev : (fun n : Fin 2048 => V3 m ρ c main_v17 (ix3 g n j))
      = fun n : Fin 2048 => Cert.ReferenceIdeal.Read.val_main_v9 (F := Ideal) x0 x1 (ix4 b hh n j) :=
    funext fun n => values_at m ρ c x0 x1 hv b hh g hg n j
  rw [eq, ek, ev]
  refine (Cert.Attn.attnNormalizeLast_eq_attnNormalizeFirst _ _ _ (fun j' => real_v5 x0 x1 hx0 hx1 _)
    (fun n j' => real_v7 x0 x1 hx0 hx1 _) (fun n => real_v9 x0 x1 hx0 hx1 _)).trans ?_
  refine (Cert.RefAttn.val_main_v25_at x0 x1 b hh s j).symm.trans ?_
  exact (Cert.RefAttn.val_main_v27_at x0 x1 b s hh j d hd).symm

end Core

end Cert.BridgeCore

end
-- ==== Proof.Assemble.lean ====
/-
  The value claim assembled: from memories agreeing on the three arguments, the idealized kernel program and the
  idealized reference end with the same result.

  The kernel program's result is the last boundary's contents at the result buffer. Read back: the rows of the
  third region's output (merged attention rows times the output weights) split into (batch, position); the merged
  attention rows are the second region's output (per merged head, the normalise-last softmax attention of the
  per-head queries, keys and values) with the heads moved back and merged; the per-head arrays are bands of the
  first region's output (the activations' rows times the projection weights). The reference computes the same
  projections as contractions, the same per-head arrays by the same slice / split / swap, and the softmax attention
  in its normalise-first arrangement. The two arrangements agree on finite entries, and the entries are finite
  because the inputs are.
-/
import proofs.«135831_j22239340659491_2_alg».proof.Defs
import proofs.«135831_j22239340659491_2_alg».proof.Proof.Gen.KernelIdeal.Frame
import proofs.«135831_j22239340659491_2_alg».proof.Proof.Gen.ReferenceIdeal.Run
import proofs.«135831_j22239340659491_2_alg».proof.Proof.Gen.ReferenceIdeal.Read
import proofs.«135831_j22239340659491_2_alg».proof.Proof.Gen.Pre_finite_inputs
import proofs.«135831_j22239340659491_2_alg».proof.Proof.KernelRun
import proofs.«135831_j22239340659491_2_alg».proof.Proof.HostGlue
import proofs.«135831_j22239340659491_2_alg».proof.Proof.MatmulRegions
import proofs.«135831_j22239340659491_2_alg».proof.Proof.AttnRegion
import proofs.«135831_j22239340659491_2_alg».proof.Proof.FiniteInputs
import proofs.«135831_j22239340659491_2_alg».proof.Proof.BridgeEnds
import proofs.«135831_j22239340659491_2_alg».proof.Proof.BridgeCore

set_option maxRecDepth 16384

noncomputable section

open scoped BigOperators

namespace Cert.Assemble

open Idealize.ShloMosaic Idealize.ShloMosaic.TcCoe Idealize.ShloMosaic.ValueIdx Idealize.SL.Sem
open Cert.KernelIdeal Cert.KernelIdeal.Gen Cert.KernelIdeal.HostGlue

variable (m : (ℓ : Loc nD τ sig) → Buf (Elt Ideal) ℓ) (ρ : Dev nD → PrngReg)

/-- With finite inputs, the kernel program's result buffer ends holding the reference's result term of the same
    arguments. -/
theorem result_value (c : Dev nD)
    (hpre : Cert.Pre_finite_inputs.fn (F := Ideal) (m ((c.tc : Thread nD τ).loc main_arg0)) (m ((c.tc : Thread nD τ).loc main_arg1))
        (m ((c.tc : Thread nD τ).loc main_arg2)) = (fun _ => 1#1)) :
    W7 m ρ c (Proc.devRef .tc main_v23)
      = Cert.ReferenceIdeal.Read.val_main_v28 (F := Ideal) (Cert.BridgeEnds.x0 m c) (Cert.BridgeEnds.x1 m c) (Cert.BridgeEnds.x2 m c) := by
  obtain ⟨hx0, hx1, -⟩ := Cert.FiniteInputs.real_of_fn _ _ _ hpre
  have h0 : ∀ (r : Fin 4096) (e : Fin 3072), arrQkv m ρ c (ix2 r e)
      = ∑ d : Fin 1024, Cert.BridgeEnds.rows0 m ρ c (ix2 r d) * Cert.BridgeEnds.weights0 m ρ c (ix2 d e) := fun r e =>
    (congrFun (Cert.KernelIdeal.MatmulRegions.final0 (V1 m ρ) c) (ix2 r e)).trans
      (Cert.KernelIdeal.MatmulRegions.rowsTimes_apply _ _ r e)
  have h1 : ∀ (g : Fin 32) (s : Fin 2048) (j : Fin 64), arrAttn m ρ c (ix3 g s j)
      = Cert.Attn.attnNormalizeLast (fun j' : Fin 64 => V3 m ρ c main_v11 (ix3 g s j'))
          (fun (n : Fin 2048) (j' : Fin 64) => V3 m ρ c main_v14 (ix3 g n j')) (fun n : Fin 2048 => V3 m ρ c main_v17 (ix3 g n j)) := fun g s j =>
    (congrFun (Cert.KernelIdeal.AttnRegion.final1 (V3 m ρ) c) (ix3 g s j)).trans
      (Cert.KernelIdeal.AttnRegion.attnRows_apply _ _ _ g s j)
  have h2 : ∀ (r : Fin 4096) (e : Fin 1024), arrOut m ρ c (ix2 r e)
      = ∑ d : Fin 1024, Cert.BridgeEnds.rows2 m ρ c (ix2 r d) * Cert.BridgeEnds.weights2 m ρ c (ix2 d e) := fun r e =>
    (congrFun (Cert.KernelIdeal.MatmulRegions.final2 (V5 m ρ) c) (ix2 r e)).trans
      (Cert.KernelIdeal.MatmulRegions.rowsTimes_apply _ _ r e)
  exact Cert.BridgeEnds.result_eq m ρ c h2
    (Cert.BridgeCore.merged_eq m ρ c (Cert.BridgeEnds.x0 m c) (Cert.BridgeEnds.x1 m c) hx0 hx1
      (Cert.BridgeEnds.queries_eq m ρ c h0) (Cert.BridgeEnds.keys_eq m ρ c h0) (Cert.BridgeEnds.values_eq m ρ c h0) h1)

/-- The two idealized programs, run from memories agreeing on the arguments, end with equal results. -/
theorem algebraic : Cert.algebraic_KernelIdeal_ReferenceIdeal := by
  intro m ρ m' ρ' hpre hagree
  refine ⟨fun c => W7 m ρ c (Proc.devRef .tc main_v23), Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2]
  exact (result_value m ρ c (hpre c)).symm

end Cert.Assemble

end
-- ==== Proof.lean ====
/-
  Single-pass softmax attention in three kernels (input projection, per-head attention, output projection) against
  its reference, over the extended reals: the claims assembled.

  The three frames are the generated ones (the reference's is its generated run with the result dropped). The ideal
  pass rewrote nothing, so there is nothing to preserve. The value claim is Proof/Assemble.lean: both programs
  compute, for finite inputs, the same projections and the same softmax attention, the kernel normalising after the
  weighted sum and scaling the query by 1/8, the reference normalising the weights first and dividing the scores by
  the square root of 64.
-/
import proofs.«135831_j22239340659491_2_alg».proof.Defs
import proofs.«135831_j22239340659491_2_alg».proof.Proof.Gen.Kernel
import proofs.«135831_j22239340659491_2_alg».proof.Proof.Gen.Kernel.Skeleton
import proofs.«135831_j22239340659491_2_alg».proof.Proof.Gen.Kernel.Launch
import proofs.«135831_j22239340659491_2_alg».proof.Proof.Gen.Kernel.Points
import proofs.«135831_j22239340659491_2_alg».proof.Proof.Gen.Kernel.Frame
import proofs.«135831_j22239340659491_2_alg».proof.Proof.Gen.KernelIdeal
import proofs.«135831_j22239340659491_2_alg».proof.Proof.Gen.KernelIdeal.Skeleton
import proofs.«135831_j22239340659491_2_alg».proof.Proof.Gen.KernelIdeal.Launch
import proofs.«135831_j22239340659491_2_alg».proof.Proof.Gen.KernelIdeal.Points
import proofs.«135831_j22239340659491_2_alg».proof.Proof.Gen.KernelIdeal.Frame
import proofs.«135831_j22239340659491_2_alg».proof.Proof.Gen.ReferenceIdeal
import proofs.«135831_j22239340659491_2_alg».proof.Proof.Gen.ReferenceIdeal.Run
import proofs.«135831_j22239340659491_2_alg».proof.Proof.Gen.ReferenceIdeal.Read
import proofs.«135831_j22239340659491_2_alg».proof.Proof.Gen.Pre_finite_inputs
import proofs.«135831_j22239340659491_2_alg».proof.Proof.Assemble
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Assemble.algebraic⟩

end Cert.Proof

end
